-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S128x40 .f32) (main_arg5 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg4
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x40 .f32) (main_arg5 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x128 : Shape := ⟨2, ![1, 128]⟩
abbrev S1x40 : Shape := ⟨2, ![1, 40]⟩
abbrev S10000x40 : Shape := ⟨2, ![10000, 40]⟩
abbrev S200x10000 : Shape := ⟨2, ![200, 10000]⟩
abbrev S200x40 : Shape := ⟨2, ![200, 40]⟩
abbrev S200x128 : Shape := ⟨2, ![200, 128]⟩
abbrev S200 : Shape := ⟨1, ![200]⟩
abbrev S200x1 : Shape := ⟨2, ![200, 1]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x128, .f32⟩
  | .hbm, ⟨7, _⟩ => ⟨S1x40, .f32⟩
  | .hbm, ⟨8, _⟩ => ⟨S10000x40, .f32⟩
  | .local _ .vmem, ⟨0, _⟩ => ⟨S200x10000, .f32⟩
  | .local _ .vmem, ⟨1, _⟩ => ⟨S200x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x40, .f32⟩
  | .local _ .vmem, ⟨6, _⟩ => ⟨S1x40, .f32⟩
  | .local _ .vmem, ⟨7, _⟩ => ⟨S200x40, .f32⟩
  | .local _ .vmem, ⟨8, _⟩ => ⟨S200x40, .f32⟩
  | .local _ .vmem, ⟨9, _⟩ => ⟨S10000x128, .f32⟩
  | .local _ .vmem, ⟨10, _⟩ => ⟨S10000x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c200_i32 : BitVec 32 := 200#32
  let v22 : BitVec 32 := Scalar.muli arg1 c200_i32
  let v23 : Index := Scalar.indexCast v22
  let c0_14 : Index := 0#32
  ![v23.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c49_i32 : BitVec 32 := 49#32
  let v1 : BitVec 32 := Scalar.subi c49_i32 v0
  let v2 : BitVec 32 := Scalar.muli arg0 v1
  let v3 : BitVec 32 := Scalar.addi arg1 v2
  let c0_i32 : BitVec 32 := 0#32
  let c0_i32_0 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c49_i32 : BitVec 32 := 49#32
  let v0 : BitVec 32 := Scalar.subi c49_i32 arg1
  let v1 : BitVec 32 := Scalar.muli arg0 v0
  let c0_i32 : BitVec 32 := 0#32
  let c0_i32_0 : BitVec 32 := 0#32
  ![v1.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S200x40 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S128_S1x128 : S128.ShapeCasts S1x128
  shapeCasts_S40_S1x40 : S40.ShapeCasts S1x40
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S128x40_S128x40_0_0 : ∀ a, (![0, 0] : Fin 2 → Nat) a + S128x40.size a ≤ S128x40.size a
  h_S128x40 : 0 < S128x40.numel
  h_S200x40 : 0 < S200x40.numel
  shapeCasts_S200x40_S200x40 : S200x40.ShapeCasts S200x40
  inb_S10000x40_S10000x40_0_0 : ∀ a, (![0, 0] : Fin 2 → Nat) a + S10000x40.size a ≤ S10000x40.size a
  h_S10000x40 : 0 < S10000x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S200x40 : S1x40.Broadcasts S200x40
  reduces_S200x40_S200 : S200x40.Reduces [1] S200
  shapeCasts_S200_S200x1 : S200.ShapeCasts S200x1
  broadcasts_S200x1_S200x40 : S200x1.Broadcasts S200x40
  inb_S200x40_S200x40_0_0 : ∀ a, (![0, 0] : Fin 2 → Nat) a + S200x40.size a ≤ S200x40.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x40_S200x40_1_0_0_1_n_n_wf : DotDims.WF S200x128 S128x40 S200x40 [1] [0] [0] [1] [] []
  dot_S200x10000_S10000x40_S200x40_1_0_0_1_n_n_wf : DotDims.WF S200x10000 S10000x40 S200x40 [1] [0] [0] [1] [] []
  hrank0 : 0 < grid0.rank
  k0_off1_inb : ∀ i : grid0.Coords, ∀ (k0_h2 : k0_cond2 i = 1#1), ∀ a, (k0_off1 i) a + S200x40.size a ≤ S10000x40.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x40.size a ≤ S128x40.size a
  hwx0_4 : ∀ i : grid0.Coords, EltTy.bits .f32 = 32 ∨ (Rect.block (s := S128x40) S128x40.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x40.size a ≤ S1x40.size a
  hwx0_5 : ∀ i : grid0.Coords, EltTy.bits .f32 = 32 ∨ (Rect.block (s := S1x40) S1x40.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x40.size a ≤ S10000x40.size a
  hwx0_6 : ∀ i : grid0.Coords, EltTy.bits .f32 = 32 ∨ (Rect.block (s := S10000x40) S200x40.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x40_S200x40_1_0_0_1_n_n : DotDims S200x128 S128x40 S200x40 where
  lhsContracting := [1]
  rhsContracting := [0]
  lhsNonContracting := [0]
  rhsNonContracting := [1]
  lhsBatch := []
  rhsBatch := []
  wf := dot_S200x128_S128x40_S200x40_1_0_0_1_n_n_wf
def dot_S200x10000_S10000x40_S200x40_1_0_0_1_n_n : DotDims S200x10000 S10000x40 S200x40 where
  lhsContracting := [1]
  rhsContracting := [0]
  lhsNonContracting := [0]
  rhsNonContracting := [1]
  lhsBatch := []
  rhsBatch := []
  wf := dot_S200x10000_S10000x40_S200x40_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x40.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x40.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S200x40.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x128 : Shape := ⟨2, ![1, 128]⟩
abbrev S_ : Shape := ⟨0, ![]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 37
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x40, .f32⟩
  | .hbm, ⟨15, _⟩ => ⟨S10000x40, .f32⟩
  | .hbm, ⟨16, _⟩ => ⟨S1x40, .f32⟩
  | .hbm, ⟨17, _⟩ => ⟨S10000x40, .f32⟩
  | .hbm, ⟨18, _⟩ => ⟨S10000x40, .f32⟩
  | .hbm, ⟨19, _⟩ => ⟨S_, .f32⟩
  | .hbm, ⟨20, _⟩ => ⟨S10000x40, .f32⟩
  | .hbm, ⟨21, _⟩ => ⟨S10000x40, .f32⟩
  | .hbm, ⟨22, _⟩ => ⟨S_, .f32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S10000x1, .f32⟩
  | .hbm, ⟨28, _⟩ => ⟨S10000x40, .f32⟩
  | .hbm, ⟨29, _⟩ => ⟨S10000x40, .f32⟩
  | .hbm, ⟨30, _⟩ => ⟨S10000x40, .f32⟩
  | .hbm, ⟨31, _⟩ => ⟨S_, .f32⟩
  | .hbm, ⟨32, _⟩ => ⟨S10000, .f32⟩
  | .hbm, ⟨33, _⟩ => ⟨S10000x1, .f32⟩
  | .hbm, ⟨34, _⟩ => ⟨S10000x1, .f32⟩
  | .hbm, ⟨35, _⟩ => ⟨S10000x40, .f32⟩
  | .hbm, ⟨36, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_v11 : Ref sig .tc := ⟨.hbm, 21, rfl⟩
abbrev main_call2_cst : Ref sig .tc := ⟨.hbm, 22, rfl⟩
abbrev main_call2_v0 : Ref sig .tc := ⟨.hbm, 23, rfl⟩
abbrev main_call2_cst_0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_call2_v5 : Ref sig .tc := ⟨.hbm, 29, rfl⟩
abbrev main_call2_v6 : Ref sig .tc := ⟨.hbm, 30, rfl⟩
abbrev main_call2_cst_1 : Ref sig .tc := ⟨.hbm, 31, rfl⟩
abbrev main_call2_v7 : Ref sig .tc := ⟨.hbm, 32, rfl⟩
abbrev main_call2_v8 : Ref sig .tc := ⟨.hbm, 33, rfl⟩
abbrev main_call2_v9 : Ref sig .tc := ⟨.hbm, 34, rfl⟩
abbrev main_call2_v10 : Ref sig .tc := ⟨.hbm, 35, rfl⟩
abbrev main_v12 : Ref sig .tc := ⟨.hbm, 36, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  bcast_S_S10000x40 : S_.BroadcastsInDim S10000x40 (![] : Fin 0 → Fin S10000x40.rank)
  reducesTo_S10000x40_S10000_d1 : S10000x40.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x40_S10000x40_1_0_0_1_n_n_wf : DotDims.WF S10000x128 S128x40 S10000x40 [1] [0] [0] [1] [] []
  dot_S10000x10000_S10000x40_S10000x40_1_0_0_1_n_n_wf : DotDims.WF S10000x10000 S10000x40 S10000x40 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf
def dot_S10000x10000_S10000x40_S10000x40_1_0_0_1_n_n : DotDims S10000x10000 S10000x40 S10000x40 where
  lhsContracting := [1]
  rhsContracting := [0]
  lhsNonContracting := [0]
  rhsNonContracting := [1]
  lhsBatch := []
  rhsBatch := []
  wf := dot_S10000x10000_S10000x40_S10000x40_1_0_0_1_n_n_wf

class Facts : Prop extends Facts₀ where

variable [Facts]
-- ==== Proof.KbSched.lean ====
/-
  The schedule of the two-phase grid, decided once over its 100 points (point t = 50·p + i for phase p and row
  block i): the projection x·W1 is computed at point 0 only; points 0–49 (phase 0) each fill rows
  [200·t, 200·t + 200) of the feature scratch; points 50–99 (phase 1) each write one block of the output. The
  output's block index is 0 throughout phase 0 and 99 − t in phase 1, so its buffer is written back after point
  49 (holding nothing the body stored) and after every point of phase 1; the adjacency block index is t in
  phase 0 and 99 − t in phase 1.
-/
import proofs.«165422_g27590869909663_cont_9to1_2276_13_alg».proof.Proof.Gen.Kernel.Frame
import proofs.«165422_g27590869909663_cont_9to1_2276_13_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.Kernel Cert.Kernel.Gen

/-- The condition under which the body computes the projection, as the body's scalar chain states it. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at point 0 only. -/
theorem condFirst_iff : ∀ t : Fin cfg0.N, condFirst (grid0.coords t) ↔ t.val = 0 :=
  (by decide +kernel : ∀ t : Fin grid0.N, condFirst (grid0.coords t) ↔ t.val = 0)

/-- Phase 0 is the points below 50. -/
theorem phase0_iff : ∀ t : Fin cfg0.N, k0_cond2 (grid0.coords t) = 1#1 ↔ t.val < 50 :=
  (by decide +kernel : ∀ t : Fin grid0.N, k0_cond2 (grid0.coords t) = 1#1 ↔ t.val < 50)

/-- Phase 1 is the points from 50 on. -/
theorem phase1_iff : ∀ t : Fin cfg0.N, k0_cond3 (grid0.coords t) = 1#1 ↔ 50 ≤ t.val :=
  (by decide +kernel : ∀ t : Fin grid0.N, k0_cond3 (grid0.coords t) = 1#1 ↔ 50 ≤ t.val)

/-- In phase 0 the rows the body stores into the feature scratch start at 200·t. -/
theorem off_phase0 : ∀ t : Fin cfg0.N, t.val < 50 → k0_off1 (grid0.coords t) = ![200 * t.val, 0] :=
  (by decide +kernel : ∀ t : Fin grid0.N, t.val < 50 → k0_off1 (grid0.coords t) = ![200 * t.val, 0])

/-- The output's buffer is written back after point 49 and after every point of phase 1. -/
theorem flush_out_iff : ∀ t : Fin cfg0.N, (cfg0.win 6).flush t = true ↔ 49 ≤ t.val :=
  (by decide +kernel : ∀ t : Fin grid0.N, win0_6.flush t = true ↔ 49 ≤ t.val)

/-- The output's block index at a point of phase 1. -/
theorem out_index_phase1 : ∀ t : Fin cfg0.N, 50 ≤ t.val → win0_6.index t = ![99 - t.val, 0] :=
  (by decide +kernel : ∀ t : Fin grid0.N, 50 ≤ t.val → win0_6.index t = ![99 - t.val, 0])

/-- The adjacency block index: t in phase 0, 99 − t in phase 1. -/
theorem adj_index : ∀ t : Fin cfg0.N, win0_0.index t = ![if t.val < 50 then t.val else 99 - t.val, 0] :=
  (by decide +kernel : ∀ t : Fin grid0.N, win0_0.index t = ![if t.val < 50 then t.val else 99 - t.val, 0])

/-- Each window's current staging buffer at a point, and the two scratch buffers. -/
abbrev ms0 (t : Fin cfg0.N) : Memref sig .tc .vmem S200x10000 .f32 := win0_0.stage (cfg0.slots t 0)
abbrev ms1 (t : Fin cfg0.N) : Memref sig .tc .vmem S10000x128 .f32 := win0_1.stage (cfg0.slots t 1)
abbrev ms2 (t : Fin cfg0.N) : Memref sig .tc .vmem S128x128 .f32 := win0_2.stage (cfg0.slots t 2)
abbrev ms3 (t : Fin cfg0.N) : Memref sig .tc .vmem S1x128 .f32 := win0_3.stage (cfg0.slots t 3)
abbrev ms4 (t : Fin cfg0.N) : Memref sig .tc .vmem S128x40 .f32 := win0_4.stage (cfg0.slots t 4)
abbrev ms5 (t : Fin cfg0.N) : Memref sig .tc .vmem S1x40 .f32 := win0_5.stage (cfg0.slots t 5)
abbrev ms6 (t : Fin cfg0.N) : Memref sig .tc .vmem S200x40 .f32 := win0_6.stage (cfg0.slots t 6)
abbrev scP : Memref sig .tc .vmem S10000x128 .f32 := Memref.whole cc0_scratch0
abbrev scG : Memref sig .tc .vmem S10000x40 .f32 := Memref.whole cc0_scratch1

/-- What the launch hands the body besides the windows: the two scratch buffers, each whole at some contents, and
    the generator register. -/
theorem PhiA_eq (c : Dev nD) :
    (Pipeline.ΦA spec0 c : sProp 𝕄)
      = iprop(iprop((∃ d, owns (c : Thread nD τ) scP fullShare d) ∗ (∃ d, owns (c : Thread nD τ) scG fullShare d)) ∗ (∃ r, prngReg c r)) := by
  unfold Pipeline.ΦA; rw [scopedRest0_eq]; simp only [scP, scG, owns_whole]; try rfl

end Cert.Kernel.Hand

end
-- ==== Proof.KbRuns.lean ====
/-
  The body at a grid point, in each of the three cases its conditionals meet, as a triple over the contents of its
  buffers: what each buffer is read to hold before, what it holds after.

  * at point 0: the projection scratch ends holding x·W1 (the body's first stored value of the two input blocks),
    and rows [o, o + 200) of the feature scratch its second stored value — computed from the adjacency block, the
    projection just stored, the bias row and W2 —, the other rows as they were;
  * at the other points of phase 0: the projection scratch is read, not written; the same rows of the feature
    scratch are overwritten in the same way;
  * in phase 1: both scratch buffers are read, not written, and the output block ends holding the body's third
    stored value (the log-softmax rows) of the adjacency block, the feature scratch and the second bias row.
  The output's buffer is untouched outside phase 1, and every input buffer is left as found.
-/
import proofs.«165422_g27590869909663_cont_9to1_2276_13_alg».proof.Proof.KbSched
import Idealize.ShloMosaic.Lib.WritesUnit
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.Kernel Cert.Kernel.Gen

/-- Rows [o, o + 200) of a 10000×40 array replaced by a 200×40 block, the other rows kept. -/
def putRows (o : ℕ) (d : Vec F S10000x40 .f32) (w : Vec F S200x40 .f32) : Vec F S10000x40 .f32 :=
  fun y => if h : o ≤ (y (0 : Fin 2)).val ∧ (y (0 : Fin 2)).val < o + 200 then
      w (Rect.unitLocal (s := S10000x40) (off := ![o, 0]) (size := S200x40.size) y (Rect.unit_rows_mem y rfl rfl h))
    else d y

theorem zero2 : (![0, 0] : Fin 2 → ℕ) = fun _ => 0 := by
  funext a; match a with | ⟨0, _⟩ => rfl | ⟨1, _⟩ => rfl

/-- A whole buffer stored through the full rectangle reads back as the stored value. -/
theorem read_store_whole {S : Shape} (v : View sig .tc .vmem S .f32) (f : v.ty.Contents (Elt F))
    {off : Fin S.rank → ℕ} (hz : off = fun _ => 0) (inb : ∀ a, off a + S.size a ≤ S.size a) (w : S.Idx → Elt F .f32) :
    v.read (Elt F) (v.writes (Elt F) f [⟨Rect.unit off S.size inb, w⟩]) = w := by
  rw [View.read_writes_eq_canon _ _ _ (fun y => ⟨_, List.mem_singleton_self _, View.mem_set_unit_zero hz inb y⟩),
    View.canon_unit_zero hz]

set_option maxHeartbeats 1000000 in
/-- Phase 1. -/
theorem runC (c : Dev nD) (i : grid0.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x40 .f32) (harg6 : arg6.IsWhole) (arg7 : Memref sig .tc .vmem S1x40 .f32) (harg7 : arg7.IsWhole) (arg8 : Memref sig .tc .vmem S200x40 .f32) (harg8 : arg8.IsWhole) (arg9 : Memref sig .tc .vmem S10000x128 .f32) (harg9 : arg9.IsWhole) (arg10 : Memref sig .tc .vmem S10000x40 .f32) (harg10 : arg10.IsWhole)
    (hc0 : ¬condFirst i) (hc1 : ¬k0_cond2 i = 1#1) (hc2 : k0_cond3 i = 1#1)
    (x0 : Vec F S200x10000 .f32) (x1 : Vec F S10000x128 .f32) (x2 : Vec F S128x128 .f32) (x3 : Vec F S1x128 .f32) (x4 : Vec F S128x40 .f32) (x5 : Vec F S1x40 .f32) (xs0 : Vec F S10000x128 .f32) (xs1 : Vec F S10000x40 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x0 xs1 x5) ∗ owns (c : Thread nD τ) arg9 fullShare xs0 ∗ owns (c : Thread nD τ) arg10 fullShare xs1) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [read_store_whole _ _ zero2]
    simp only [View.readAt_eq_ld, harg2.read_unread, harg10.read_unread, harg7.read_unread,
      View.ld_unit_zero (S := S200x10000) zero2, View.ld_unit_zero (S := S10000x40) zero2, View.ld_unit_zero (S := S1x40) zero2]
  isplitl [HS0]
  · iexists _; isplitr; · ipureintro; exact harg9.read_unread _
    iexact HS0
  iexists _; isplitr; · ipureintro; exact harg10.read_unread _
  iexact HS1

set_option maxHeartbeats 1000000 in
/-- Phase 0 after its first point: rows [o, o + 200) of the feature scratch are overwritten. -/
theorem runB (c : Dev nD) (i : grid0.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x40 .f32) (harg6 : arg6.IsWhole) (arg7 : Memref sig .tc .vmem S1x40 .f32) (harg7 : arg7.IsWhole) (arg8 : Memref sig .tc .vmem S200x40 .f32) (harg8 : arg8.IsWhole) (arg9 : Memref sig .tc .vmem S10000x128 .f32) (harg9 : arg9.IsWhole) (arg10 : Memref sig .tc .vmem S10000x40 .f32) (harg10 : arg10.IsWhole)
    (hc0 : ¬condFirst i) (hc1 : k0_cond2 i = 1#1) (hc2 : ¬k0_cond3 i = 1#1) (o : ℕ) (hoff : k0_off1 i = ![o, 0])
    (x0 : Vec F S200x10000 .f32) (x1 : Vec F S10000x128 .f32) (x2 : Vec F S128x128 .f32) (x3 : Vec F S1x128 .f32) (x4 : Vec F S128x40 .f32) (x5 : Vec F S1x40 .f32) (xs0 : Vec F S10000x128 .f32) (d : Vec F S10000x40 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare d
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare (putRows o d (k0_pay2 x0 xs0 x3 x4))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _, _; isplitr; swap; · iexact H6
    ipureintro; rfl
  isplitl [HS0]
  · iexists _; isplitr; · ipureintro; exact harg9.read_unread _
    iexact HS0
  iexists _; isplitr; swap; · iexact HS1
  ipureintro
  funext y
  rw [View.read_writes_cons_rows (size := S200x40.size) (W := 200) _ _ _ _ [] y hoff rfl rfl]
  simp only [View.writes_nil, View.readAt_eq_ld, harg2.read_unread, harg9.read_unread, harg5.read_unread, harg6.read_unread, harg10.read_unread,
    View.ld_unit_zero (S := S200x10000) zero2, View.ld_unit_zero (S := S10000x128) zero2, View.ld_unit_zero (S := S1x128) zero2, View.ld_unit_zero (S := S128x40) zero2]
  rfl

set_option maxHeartbeats 1000000 in
/-- Point 0: the projection is stored, then used for the first 200 rows of the feature scratch. -/
theorem runA (c : Dev nD) (i : grid0.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x40 .f32) (harg6 : arg6.IsWhole) (arg7 : Memref sig .tc .vmem S1x40 .f32) (harg7 : arg7.IsWhole) (arg8 : Memref sig .tc .vmem S200x40 .f32) (harg8 : arg8.IsWhole) (arg9 : Memref sig .tc .vmem S10000x128 .f32) (harg9 : arg9.IsWhole) (arg10 : Memref sig .tc .vmem S10000x40 .f32) (harg10 : arg10.IsWhole)
    (hc0 : condFirst i) (hc1 : k0_cond2 i = 1#1) (hc2 : ¬k0_cond3 i = 1#1) (o : ℕ) (hoff : k0_off1 i = ![o, 0])
    (x0 : Vec F S200x10000 .f32) (x1 : Vec F S10000x128 .f32) (x2 : Vec F S128x128 .f32) (x3 : Vec F S1x128 .f32) (x4 : Vec F S128x40 .f32) (x5 : Vec F S1x40 .f32) (d : Vec F S10000x40 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare d
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare (k0_pay1 x1 x2) ∗ owns (c : Thread nD τ) arg10 fullShare (putRows o d (k0_pay2 x0 (k0_pay1 x1 x2) x3 x4))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs1
  sl_exec (disch := first | exact hc0 | exact hc1 | exact hc2)
  sl_step
  iapply Hk
  sl_unfold_run_names
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _, _; isplitr; swap; · iexact H6
    ipureintro; rfl
  isplitl [HS0]
  · iexists _; isplitr; swap; · iexact HS0
    ipureintro
    rw [read_store_whole _ _ zero2]
    simp only [View.readAt_eq_ld, harg3.read_unread, harg4.read_unread,
      View.ld_unit_zero (S := S10000x128) zero2, View.ld_unit_zero (S := S128x128) zero2]
  iexists _; isplitr; swap; · iexact HS1
  ipureintro
  funext y
  rw [View.read_writes_cons_rows (size := S200x40.size) (W := 200) _ _ _ _ [] y hoff rfl rfl]
  simp only [View.writes_nil, View.readCov_unit_zero (S := S10000x128) _ zero2, View.readAt_eq_ld, harg2.read_unread, harg3.read_unread, harg4.read_unread, harg5.read_unread, harg6.read_unread, harg10.read_unread,
    View.ld_unit_zero (S := S200x10000) zero2, View.ld_unit_zero (S := S10000x128) zero2, View.ld_unit_zero (S := S128x128) zero2, View.ld_unit_zero (S := S1x128) zero2, View.ld_unit_zero (S := S128x40) zero2]
  rfl

end Cert.Kernel.Hand

end
-- ==== Proof.KbData.lean ====
/-
  What the two scratch buffers hold from point to point, and the proof data of the pipeline.

  The projection scratch holds x·W1 (the body's first stored value of the x and W1 blocks, which are the whole
  arrays) from point 0 on. The feature scratch is filled 200 rows at a time: after point t of phase 0 its rows below
  200·(t + 1) are the rows of one matrix, `featV`, whose rows [200·u, 200·u + 200) are the body's second stored
  value at point u; its other rows are whatever the buffer held. From point 49 on it IS that matrix, and the body's
  third stored value at a point t of phase 1, `outBlk t`, is a function of the adjacency block at t, that matrix
  and the second bias row.

  The output's buffer is written back after point 49 holding nothing the body stored, so what the write-backs do
  to the output array is stated as a relation: at a point of phase 1 the buffer is left holding `outBlk t`; at the
  other points nothing is said. The inputs' buffers are left as found.
-/
import proofs.«165422_g27590869909663_cont_9to1_2276_13_alg».proof.Proof.KbRuns
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.Kernel Cert.Kernel.Gen Idealize.ShloMosaic.ValueIdx

variable (m : (ℓ : Loc nD τ sig) → Buf (Elt F) ℓ) (ρ : Dev nD → PrngReg)

/-- The grid's first point. -/
def t0 : Fin cfg0.N := ⟨0, by decide⟩

/-- The point of phase 0 that fills row r of the feature scratch. -/
def rowPt (r : ℕ) (hr : r < 10000) : Fin cfg0.N := ⟨r / 200, by have : cfg0.N = 100 := N_0; omega⟩

/-- The point of phase 1 that writes row r of the output. -/
def outPt (r : ℕ) (hr : r < 10000) : Fin cfg0.N := ⟨99 - r / 200, by have : cfg0.N = 100 := N_0; omega⟩

/-- Position (r mod 200, j) within a block of 200 rows. -/
def inBlk (y : S10000x40.Idx) : S200x40.Idx :=
  ix2 (⟨(y (0 : Fin 2)).val % 200, Nat.mod_lt _ (by decide)⟩ : Fin 200) (⟨(y (1 : Fin 2)).val, (y (1 : Fin 2)).isLt⟩ : Fin 40)

/-- x·W1, as the body computes it at point 0. -/
def projV (c : Dev nD) : Vec F S10000x128 .f32 := k0_pay1 (iblk m c 1 t0) (iblk m c 2 t0)

/-- The 200 rows of features the body stores at point u. -/
def featBlk (c : Dev nD) (u : Fin cfg0.N) : Vec F S200x40 .f32 :=
  k0_pay2 (iblk m c 0 u) (projV m c) (iblk m c 3 u) (iblk m c 4 u)

/-- The feature matrix: row r is row r mod 200 of the block stored at point r / 200. -/
def featV (c : Dev nD) : Vec F S10000x40 .f32 :=
  fun y => featBlk m c (rowPt (y (0 : Fin 2)).val (y (0 : Fin 2)).isLt) (inBlk y)

/-- The 200 rows of output the body stores at a point t of phase 1. -/
def outBlk (c : Dev nD) (t : Fin cfg0.N) : Vec F S200x40 .f32 :=
  k0_pay3 (iblk m c 0 t) (featV m c) (iblk m c 5 t)

/-- The output array: row r is row r mod 200 of the block stored at point 99 − r / 200. -/
def outV (c : Dev nD) : Vec F S10000x40 .f32 :=
  fun y => outBlk m c (outPt (y (0 : Fin 2)).val (y (0 : Fin 2)).isLt) (inBlk y)

/-- The feature scratch agrees with the feature matrix on its rows below 200·k. -/
def FeatUpTo (c : Dev nD) (k : ℕ) (d : Vec F S10000x40 .f32) : Prop :=
  ∀ y : S10000x40.Idx, (y (0 : Fin 2)).val < 200 * k → d y = featV m c y

/-- One point of phase 0 extends the agreement by 200 rows. -/
theorem FeatUpTo.step (c : Dev nD) (t : Fin cfg0.N) (ht : t.val < 50) (d : Vec F S10000x40 .f32)
    (h : FeatUpTo m c t.val d) : FeatUpTo m c (t.val + 1) (putRows (200 * t.val) d (featBlk m c t)) := by
  intro y hy
  unfold putRows
  by_cases hin : 200 * t.val ≤ (y (0 : Fin 2)).val ∧ (y (0 : Fin 2)).val < 200 * t.val + 200
  · rw [dif_pos hin]
    unfold featV
    have e1 : rowPt (y (0 : Fin 2)).val (y (0 : Fin 2)).isLt = t := Fin.ext (by
      show (y (0 : Fin 2)).val / 200 = t.val
      omega)
    rw [e1]
    refine congrArg (featBlk m c t) (funext fun a => Fin.ext ?_)
    match a with
    | ⟨0, _⟩ =>
      show (y (0 : Fin 2)).val - 200 * t.val = (y (0 : Fin 2)).val % 200
      omega
    | ⟨1, _⟩ =>
      show (y (1 : Fin 2)).val - 0 = (y (1 : Fin 2)).val
      omega
  · rw [dif_neg hin]
    exact h y (by omega)

/-- Agreement on all 10000 rows is equality. -/
theorem FeatUpTo.eq (c : Dev nD) (k : ℕ) (hk : 50 ≤ k) (d : Vec F S10000x40 .f32) (h : FeatUpTo m c k d) : d = featV m c :=
  funext fun y => h y (by have := (y (0 : Fin 2)).isLt; have : S10000x40.size (0 : Fin 2) = 10000 := rfl; omega)

/-- The invariant between points: before point 0 the scratch buffers hold anything; afterwards the projection scratch
    holds x·W1 and the feature scratch agrees with the feature matrix on the rows filled so far. -/
def Phi (c : Dev nD) : (n : ℕ) → n ≤ cfg0.N → sProp 𝕄
  | 0, _ => Pipeline.ΦA spec0 c
  | n + 1, _ => iprop(iprop(owns (c : Thread nD τ) scP fullShare (projV m c)
      ∗ (∃ d, ⌜FeatUpTo m c (min (n + 1) 50) d⌝ ∗ owns (c : Thread nD τ) scG fullShare d)) ∗ (∃ r, prngReg c r))

theorem Phi_zero (c : Dev nD) (n : ℕ) (h : n ≤ cfg0.N) (hz : n = 0) : Phi m c n h = Pipeline.ΦA spec0 c := by
  subst hz; rfl

theorem Phi_pos (c : Dev nD) (n : ℕ) (h : n ≤ cfg0.N) (hz : n ≠ 0) :
    Phi m c n h = iprop(iprop(owns (c : Thread nD τ) scP fullShare (projV m c)
      ∗ (∃ d, ⌜FeatUpTo m c (min n 50) d⌝ ∗ owns (c : Thread nD τ) scG fullShare d)) ∗ (∃ r, prngReg c r)) := by
  cases n with
  | zero => exact absurd rfl hz
  | succ n => rfl

/-- The proof data of the pipeline on core c. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => 50 ≤ t.val → X = outBlk m c t
  Φ t := Phi m c t.val (Nat.le_of_lt_succ t.isLt)
  q _ := fullShare
  owed _ := 0

theorem A_eq (c : Dev nD) (w : Fin cfg0.W) : (rdat m c).A w = V m c (Pipeline.arrRef spec0 w) := by
  dsimp only [rdat]

end Cert.Kernel.Hand

end
-- ==== Proof.KbOblig.lean ====
/-
  The body obligation: at every point, from the invariant and the windows' buffers at whatever they may hold there
  (each input at its block), the body runs to the invariant at the next point, every input buffer left as found and
  — at a point of phase 1 — the output's buffer holding that point's 200 rows of output. Three cases by the point:
  point 0 (the projection is stored and the first 200 feature rows), the rest of phase 0 (200 more feature rows; the
  agreement of the feature scratch with the feature matrix grows by those rows), phase 1 (the feature scratch, now
  the whole feature matrix, is only read).
-/
import proofs.«165422_g27590869909663_cont_9to1_2276_13_alg».proof.Proof.KbData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.Kernel Cert.Kernel.Gen Idealize.ShloMosaic.ValueIdx

variable (m : (ℓ : Loc nD τ sig) → Buf (Elt F) ℓ) (ρ : Dev nD → PrngReg)

theorem fetched0 (c : Dev nD) (t : Fin cfg0.N) (d) : (rdat m c).fetched 0 t d = iblk m c 0 t := by
  unfold RDat.fetched RDat.blockOf iblk; rw [A_eq]; try rfl
theorem fetched1 (c : Dev nD) (t : Fin cfg0.N) (d) : (rdat m c).fetched 1 t d = iblk m c 1 t := by
  unfold RDat.fetched RDat.blockOf iblk; rw [A_eq]; try rfl
theorem fetched2 (c : Dev nD) (t : Fin cfg0.N) (d) : (rdat m c).fetched 2 t d = iblk m c 2 t := by
  unfold RDat.fetched RDat.blockOf iblk; rw [A_eq]; try rfl
theorem fetched3 (c : Dev nD) (t : Fin cfg0.N) (d) : (rdat m c).fetched 3 t d = iblk m c 3 t := by
  unfold RDat.fetched RDat.blockOf iblk; rw [A_eq]; try rfl
theorem fetched4 (c : Dev nD) (t : Fin cfg0.N) (d) : (rdat m c).fetched 4 t d = iblk m c 4 t := by
  unfold RDat.fetched RDat.blockOf iblk; rw [A_eq]; try rfl
theorem fetched5 (c : Dev nD) (t : Fin cfg0.N) (d) : (rdat m c).fetched 5 t d = iblk m c 5 t := by
  unfold RDat.fetched RDat.blockOf iblk; rw [A_eq]; try rfl

/-- Input window 0's buffer holds its block at every point, fetched there or not. -/
theorem finds0 (c : Dev nD) (t : Fin cfg0.N) (Y) (hY : (rdat m c).Finds 0 t Y) : Y = iblk m c 0 t := by
  obtain ⟨d, hd⟩ := Pipeline.RDat.finds_in_eq_fetched (rdat m c) 0 rfl (fun _ _ _ => rfl) (fun _ _ _ h => h) t Y hY
  rw [hd]; exact fetched0 m c t d
/-- Input window 1's buffer holds its block at every point, fetched there or not. -/
theorem finds1 (c : Dev nD) (t : Fin cfg0.N) (Y) (hY : (rdat m c).Finds 1 t Y) : Y = iblk m c 1 t := by
  obtain ⟨d, hd⟩ := Pipeline.RDat.finds_in_eq_fetched (rdat m c) 1 rfl (fun _ _ _ => rfl) (fun _ _ _ h => h) t Y hY
  rw [hd]; exact fetched1 m c t d
/-- Input window 2's buffer holds its block at every point, fetched there or not. -/
theorem finds2 (c : Dev nD) (t : Fin cfg0.N) (Y) (hY : (rdat m c).Finds 2 t Y) : Y = iblk m c 2 t := by
  obtain ⟨d, hd⟩ := Pipeline.RDat.finds_in_eq_fetched (rdat m c) 2 rfl (fun _ _ _ => rfl) (fun _ _ _ h => h) t Y hY
  rw [hd]; exact fetched2 m c t d
/-- Input window 3's buffer holds its block at every point, fetched there or not. -/
theorem finds3 (c : Dev nD) (t : Fin cfg0.N) (Y) (hY : (rdat m c).Finds 3 t Y) : Y = iblk m c 3 t := by
  obtain ⟨d, hd⟩ := Pipeline.RDat.finds_in_eq_fetched (rdat m c) 3 rfl (fun _ _ _ => rfl) (fun _ _ _ h => h) t Y hY
  rw [hd]; exact fetched3 m c t d
/-- Input window 4's buffer holds its block at every point, fetched there or not. -/
theorem finds4 (c : Dev nD) (t : Fin cfg0.N) (Y) (hY : (rdat m c).Finds 4 t Y) : Y = iblk m c 4 t := by
  obtain ⟨d, hd⟩ := Pipeline.RDat.finds_in_eq_fetched (rdat m c) 4 rfl (fun _ _ _ => rfl) (fun _ _ _ h => h) t Y hY
  rw [hd]; exact fetched4 m c t d
/-- Input window 5's buffer holds its block at every point, fetched there or not. -/
theorem finds5 (c : Dev nD) (t : Fin cfg0.N) (Y) (hY : (rdat m c).Finds 5 t Y) : Y = iblk m c 5 t := by
  obtain ⟨d, hd⟩ := Pipeline.RDat.finds_in_eq_fetched (rdat m c) 5 rfl (fun _ _ _ => rfl) (fun _ _ _ h => h) t Y hY
  rw [hd]; exact fetched5 m c t d

/-- The invariant at a point's start, restated at `t.val`. -/
theorem Phi_castSucc (c : Dev nD) (t : Fin cfg0.N) :
    (rdat m c).Φ t.castSucc = Phi m c t.val (Nat.le_of_lt t.isLt) := by
  dsimp only [rdat]; simp only [Fin.coe_castSucc]

set_option maxHeartbeats 4000000 in
/-- The body at any point. -/
theorem sound_body (c : Dev nD) (t : Fin cfg0.N) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ owns (c : Thread nD τ) (ms0 t) fullShare (Y 0) ∗ owns (c : Thread nD τ) (ms1 t) fullShare (Y 1)
        ∗ owns (c : Thread nD τ) (ms2 t) fullShare (Y 2) ∗ owns (c : Thread nD τ) (ms3 t) fullShare (Y 3)
        ∗ owns (c : Thread nD τ) (ms4 t) fullShare (Y 4) ∗ owns (c : Thread nD τ) (ms5 t) fullShare (Y 5)
        ∗ owns (c : Thread nD τ) (ms6 t) fullShare (Y 6))
      ⊢ wp frame (wpE (defs₀ (F := F)) Variants.none c none) Set.univ (bodyAt0 t) (fun _ =>
        iprop((rdat m c).Φ t.succ ∗ (rdat m c).owesAt () t.succ
          ∗ (∃ X, ⌜(rdat m c).after 0 t (Y 0) X⌝ ∗ owns (c : Thread nD τ) (ms0 t) fullShare X)
          ∗ (∃ X, ⌜(rdat m c).after 1 t (Y 1) X⌝ ∗ owns (c : Thread nD τ) (ms1 t) fullShare X)
          ∗ (∃ X, ⌜(rdat m c).after 2 t (Y 2) X⌝ ∗ owns (c : Thread nD τ) (ms2 t) fullShare X)
          ∗ (∃ X, ⌜(rdat m c).after 3 t (Y 3) X⌝ ∗ owns (c : Thread nD τ) (ms3 t) fullShare X)
          ∗ (∃ X, ⌜(rdat m c).after 4 t (Y 4) X⌝ ∗ owns (c : Thread nD τ) (ms4 t) fullShare X)
          ∗ (∃ X, ⌜(rdat m c).after 5 t (Y 5) X⌝ ∗ owns (c : Thread nD τ) (ms5 t) fullShare X)
          ∗ (∃ X, ⌜(rdat m c).after 6 t (Y 6) X⌝ ∗ owns (c : Thread nD τ) (ms6 t) fullShare X))) := by
  have e0 := finds0 m c t (Y 0) (hY 0)
  have e1 := finds1 m c t (Y 1) (hY 1)
  have e2 := finds2 m c t (Y 2) (hY 2)
  have e3 := finds3 m c t (Y 3) (hY 3)
  have e4 := finds4 m c t (Y 4) (hY 4)
  have e5 := finds5 m c t (Y 5) (hY 5)
  rw [e0, e1, e2, e3, e4, e5]
  unfold bodyAt0
  rw [show (rdat m c).owesAt () t.succ = (rdat m c).owesAt () t.castSucc from rfl]
  rw [show (rdat m c).Φ t.succ = Phi m c (t.val + 1) t.isLt from rfl, Phi_castSucc,
    Phi_pos m c (t.val + 1) t.isLt (Nat.succ_ne_zero _)]
  have hN : t.val < 100 := lt_of_lt_of_eq t.isLt (show cfg0.N = 100 from N_0)
  by_cases hz : t.val = 0
  · -- point 0
    obtain rfl : t = t0 := Fin.ext hz
    rw [Phi_zero m c _ _ hz, PhiA_eq]
    iintro ⟨⟨⟨HS0, ⟨%dG, HS1⟩⟩, Hg⟩, Ho, H0, H1, H2, H3, H4, H5, H6⟩
    iapply (runA c (grid0.coords t0) _ _ _ _ _ _ _ _ _ _ _ _ _ _ _ _ _ _ ((condFirst_iff t0).mpr rfl) ((phase0_iff t0).mpr (by decide))
      (fun h => absurd ((phase1_iff t0).mp h) (by decide)) (200 * t0.val) (off_phase0 t0 (by decide))
      (iblk m c 0 t0) (iblk m c 1 t0) (iblk m c 2 t0) (iblk m c 3 t0) (iblk m c 4 t0) (iblk m c 5 t0) dG Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%d6, H6⟩, HS0, HS1⟩
    isplitl [HS0 HS1 Hg]
    · isplitl [HS0 HS1]
      · isplitl [HS0]
        · iexact HS0
        iexists _; isplitr; swap; · iexact HS1
        ipureintro
        exact FeatUpTo.step m c t0 (by decide) dG (fun y hy => absurd hy (by simp [t0]))
      iexact Hg
    isplitl [Ho]; · iexact Ho
    isplitl [H0]
    · iexists _; isplitr; · ipureintro; exact rfl
      iexact H0
    isplitl [H1]
    · iexists _; isplitr; · ipureintro; exact rfl
      iexact H1
    isplitl [H2]
    · iexists _; isplitr; · ipureintro; exact rfl
      iexact H2
    isplitl [H3]
    · iexists _; isplitr; · ipureintro; exact rfl
      iexact H3
    isplitl [H4]
    · iexists _; isplitr; · ipureintro; exact rfl
      iexact H4
    isplitl [H5]
    · iexists _; isplitr; · ipureintro; exact rfl
      iexact H5
    iexists _; isplitr; swap; · iexact H6
    ipureintro; exact fun h => absurd h (by decide)
  · by_cases h1 : t.val < 50
    · -- the rest of phase 0
      rw [Phi_pos m c _ _ hz]
      iintro ⟨⟨⟨HS0, ⟨%dG, %hG, HS1⟩⟩, Hg⟩, Ho, H0, H1, H2, H3, H4, H5, H6⟩
      iapply (runB c (grid0.coords t) _ _ _ _ _ _ _ _ _ _ _ _ _ _ _ _ _ _ (fun h => hz ((condFirst_iff t).mp h)) ((phase0_iff t).mpr h1)
        (fun h => absurd ((phase1_iff t).mp h) (by omega)) (200 * t.val) (off_phase0 t h1)
        (iblk m c 0 t) (iblk m c 1 t) (iblk m c 2 t) (iblk m c 3 t) (iblk m c 4 t) (iblk m c 5 t) (projV m c) dG Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%d6, H6⟩, HS0, HS1⟩
      isplitl [HS0 HS1 Hg]
      · isplitl [HS0 HS1]
        · isplitl [HS0]
          · iexact HS0
          iexists _; isplitr; swap; · iexact HS1
          ipureintro
          rw [Nat.min_eq_left (by omega : t.val + 1 ≤ 50)]
          rw [Nat.min_eq_left (by omega : t.val ≤ 50)] at hG
          exact FeatUpTo.step m c t h1 dG hG
        iexact Hg
      isplitl [Ho]; · iexact Ho
      isplitl [H0]
      · iexists _; isplitr; · ipureintro; exact rfl
        iexact H0
      isplitl [H1]
      · iexists _; isplitr; · ipureintro; exact rfl
        iexact H1
      isplitl [H2]
      · iexists _; isplitr; · ipureintro; exact rfl
        iexact H2
      isplitl [H3]
      · iexists _; isplitr; · ipureintro; exact rfl
        iexact H3
      isplitl [H4]
      · iexists _; isplitr; · ipureintro; exact rfl
        iexact H4
      isplitl [H5]
      · iexists _; isplitr; · ipureintro; exact rfl
        iexact H5
      iexists _; isplitr; swap; · iexact H6
      ipureintro; exact fun h => absurd h (by omega)
    · -- phase 1
      rw [Phi_pos m c _ _ hz]
      iintro ⟨⟨⟨HS0, ⟨%dG, %hG, HS1⟩⟩, Hg⟩, Ho, H0, H1, H2, H3, H4, H5, H6⟩
      obtain rfl := FeatUpTo.eq m c _ (by omega : 50 ≤ min t.val 50) dG hG
      iapply (runC c (grid0.coords t) _ _ _ _ _ _ _ _ _ _ _ _ _ _ _ _ _ _ (fun h => hz ((condFirst_iff t).mp h)) (fun h => h1 ((phase0_iff t).mp h))
        ((phase1_iff t).mpr (by omega))
        (iblk m c 0 t) (iblk m c 1 t) (iblk m c 2 t) (iblk m c 3 t) (iblk m c 4 t) (iblk m c 5 t) (projV m c) (featV m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexists _; isplitr; swap; · iexact HS1
          ipureintro
          exact fun y _ => rfl
        iexact Hg
      isplitl [Ho]; · iexact Ho
      isplitl [H0]
      · iexists _; isplitr; · ipureintro; exact rfl
        iexact H0
      isplitl [H1]
      · iexists _; isplitr; · ipureintro; exact rfl
        iexact H1
      isplitl [H2]
      · iexists _; isplitr; · ipureintro; exact rfl
        iexact H2
      isplitl [H3]
      · iexists _; isplitr; · ipureintro; exact rfl
        iexact H3
      isplitl [H4]
      · iexists _; isplitr; · ipureintro; exact rfl
        iexact H4
      isplitl [H5]
      · iexists _; isplitr; · ipureintro; exact rfl
        iexact H5
      iexists _; isplitr; swap; · iexact H6
      ipureintro; exact fun _ => rfl

/-- The body obligation of the relational proof data, at every point. -/
theorem body_obligation (c : Dev nD) : (rdat (F := F) m c).BodyObligation (defs₀ (F := F)) Variants.none () Set.univ := fun t Y hY => by
  rw [bigSep_W0, bigSep_W0]
  exact sound_body m c t Y hY

/-- What the launch hands the region is the invariant before the first point. -/
theorem hin (c : Dev nD) : Pipeline.ΦA spec0 c ⊢ (rdat m c).Φ 0 := by
  rw [show (rdat m c).Φ 0 = Phi m c 0 (Nat.zero_le _) from rfl, Phi_zero m c 0 _ rfl]
  try exact Idealize.SL.BI.Entails.refl _

/-- After the last point the invariant gives it back: what the scratch buffers hold is forgotten. -/
theorem hout (c : Dev nD) : (rdat m c).Φ (Fin.last cfg0.N) ⊢ Pipeline.ΦA spec0 c := by
  rw [show (rdat m c).Φ (Fin.last cfg0.N) = Phi m c (Fin.last cfg0.N).val (Nat.le_of_lt_succ (Fin.last cfg0.N).isLt) from rfl,
    Phi_pos m c _ _ (by rw [Fin.val_last]; have : cfg0.N = 100 := N_0; omega), PhiA_eq]
  iintro ⟨⟨HS0, ⟨%d, %hd, HS1⟩⟩, Hg⟩
  isplitl [HS0 HS1]
  · isplitl [HS0]
    · iexists _; iexact HS0
    iexists _; iexact HS1
  iexact Hg

end Cert.Kernel.Hand

end
-- ==== Proof.KbLaunch.lean ====
/-
  The run of the whole program from the body obligation, and what it leaves in the arrays.

  Every execution terminates without a fault with each argument array unchanged (an input window's array is never
  written; the two bias vectors are staged through reshaped copies and are not touched). The output array is
  written back block by block: after point 49 its rows 0–199 receive whatever the output's buffer then held, and
  after point t of phase 1 its rows [200·(99 − t), 200·(99 − t) + 200) receive that point's 200 rows of output — so
  after the write-backs below n every row from 200·(100 − n) on holds its final value, and after all 100 the whole
  array is `outV`: the early junk in rows 0–199 is overwritten by the last point.
-/
import proofs.«165422_g27590869909663_cont_9to1_2276_13_alg».proof.Proof.KbOblig

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.Kernel Cert.Kernel.Gen Idealize.ShloMosaic.ValueIdx

variable (m : (ℓ : Loc nD τ sig) → Buf (Elt F) ℓ) (ρ : Dev nD → PrngReg)

set_option backward.isDefEq.respectTransparency.types false in
/-- Every weakly fair execution terminates, each windowed array ending at contents the write-backs allow and every
    other unscoped buffer as the region found it. -/
theorem run_main : θ_run defs (onTc (τ := τ) (main (F := F))) (s₀ m ρ) (Pipeline.RDat.FramePost (cfgs 0) (rdat m) (V m)) :=
  Pipeline.RDat.θ_run_frame_track cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m) (hin := hin m) (hout := hout m)

/-- An input window's array ends as launched. -/
theorem kept_in (c : Dev nD) (w : Fin cfg0.W) (hw : (cfg0.win w).isOut = false)
    (Fv : Buf (Elt F) ((cfg0.win w).arr.view.loc (c.tc : Thread nD τ))) (h : (rdat m c).ArrAt w cfg0.N Fv) :
    Fv = V m c (Pipeline.arrRef spec0 w) :=
  (Eq.mp (congrFun ((rdat m c).ArrAt_in w hw _) _) h).trans (A_eq m c w)

/-- The frame: every execution terminates with the six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(kept_in m c 1 rfl _ ((h c).1 1)).trans (V_main_arg0 m c),
      (kept_in m c 0 rfl _ ((h c).1 0)).trans (V_main_arg1 m c),
      (kept_in m c 2 rfl _ ((h c).1 2)).trans (V_main_arg2 m c),
      ((h c).2 main_arg3 (Pipeline.mem_restRefs_of main_arg3 (by decide) (by decide))).trans (V_main_arg3 m c),
      (kept_in m c 4 rfl _ ((h c).1 4)).trans (V_main_arg4 m c),
      ((h c).2 main_arg5 (Pipeline.mem_restRefs_of main_arg5 (by decide) (by decide))).trans (V_main_arg5 m c)⟩) (run_main m ρ)

/-! ## The output array -/

/-- An index of the output array is in point t's block iff its row is in the block's 200 rows. -/
theorem mem_blk6 (t : Fin cfg0.N) (y : S10000x40.Idx) :
    y ∈ ((cfg0.win 6).blk t).view.set ↔ ∀ a : Fin 2, win0_6.index t a * S200x40.size a ≤ (y a).val ∧ (y a).val < win0_6.index t a * S200x40.size a + S200x40.size a := by
  show y ∈ ((View.whole main_v2).slice (win0_6.rect t)).set ↔ _
  rw [View.set_slice_whole, Rect.mem_set_unit]
  exact Iff.rfl

/-- In phase 1: the rows [200·(99 − t), 200·(99 − t) + 200). -/
theorem mem_blk6_phase1 (t : Fin cfg0.N) (ht : 50 ≤ t.val) (y : S10000x40.Idx) :
    y ∈ ((cfg0.win 6).blk t).view.set ↔ 200 * (99 - t.val) ≤ (y (0 : Fin 2)).val ∧ (y (0 : Fin 2)).val < 200 * (99 - t.val) + 200 := by
  rw [mem_blk6]
  have hi := out_index_phase1 t ht
  have h0 : win0_6.index t (0 : Fin 2) = 99 - t.val := congrFun hi 0
  have h1 : win0_6.index t (1 : Fin 2) = 0 := congrFun hi 1
  have hy1 : (y (1 : Fin 2)).val < 40 := (y (1 : Fin 2)).isLt
  constructor
  · intro h
    have b0 : win0_6.index t (0 : Fin 2) * 200 ≤ (y (0 : Fin 2)).val ∧ (y (0 : Fin 2)).val < win0_6.index t (0 : Fin 2) * 200 + 200 := h 0
    omega
  · intro h a
    match a with
    | ⟨0, _⟩ => show win0_6.index t (0 : Fin 2) * 200 ≤ (y (0 : Fin 2)).val ∧ (y (0 : Fin 2)).val < win0_6.index t (0 : Fin 2) * 200 + 200; omega
    | ⟨1, _⟩ => show win0_6.index t (1 : Fin 2) * 40 ≤ (y (1 : Fin 2)).val ∧ (y (1 : Fin 2)).val < win0_6.index t (1 : Fin 2) * 40 + 40; omega

/-- What a point of phase 1 leaves in the output's buffer is its block of `outV`. -/
theorem outBlk_eq_read (c : Dev nD) (t : Fin cfg0.N) (ht : 50 ≤ t.val) :
    (cfg0.win 6).cut (cfg0.grid.coords t) (outBlk m c t) = ((cfg0.win 6).blk t).view.read (Elt F) (outV m c) := by
  funext x
  show outBlk m c t x = outV m c (((cfg0.win 6).blk t).view.emb x)
  have hi := out_index_phase1 t ht
  have h0 : win0_6.index t (0 : Fin 2) = 99 - t.val := congrFun hi 0
  have h1 : win0_6.index t (1 : Fin 2) = 0 := congrFun hi 1
  have hx0 : (x (0 : Fin 2)).val < 200 := (x (0 : Fin 2)).isLt
  have hx1 : (x (1 : Fin 2)).val < 40 := (x (1 : Fin 2)).isLt
  have e0 : ((((cfg0.win 6).blk t).view.emb x) (0 : Fin 2)).val = win0_6.index t (0 : Fin 2) * 200 + 1 * (x (0 : Fin 2)).val := rfl
  have e1 : ((((cfg0.win 6).blk t).view.emb x) (1 : Fin 2)).val = win0_6.index t (1 : Fin 2) * 40 + 1 * (x (1 : Fin 2)).val := rfl
  unfold outV
  have ep : outPt ((((cfg0.win 6).blk t).view.emb x) (0 : Fin 2)).val ((((cfg0.win 6).blk t).view.emb x) (0 : Fin 2)).isLt = t := Fin.ext (by
    show 99 - ((((cfg0.win 6).blk t).view.emb x) (0 : Fin 2)).val / 200 = t.val
    rw [e0]; have := t.isLt; have : cfg0.N = 100 := N_0; omega)
  have eb : inBlk (((cfg0.win 6).blk t).view.emb x) = x := funext fun a => Fin.ext (by
    match a with
    | ⟨0, _⟩ => show ((((cfg0.win 6).blk t).view.emb x) (0 : Fin 2)).val % 200 = (x (0 : Fin 2)).val; rw [e0]; omega
    | ⟨1, _⟩ => show ((((cfg0.win 6).blk t).view.emb x) (1 : Fin 2)).val = (x (1 : Fin 2)).val; rw [e1]; omega)
  rw [ep, eb]

/-- After the write-backs below n, every row from 200·(100 − n) on of the output array holds its final value. -/
theorem arrAt_out (c : Dev nD) : ∀ (n : ℕ) (Fv : Buf (Elt F) ((cfg0.win 6).arr.view.loc (c.tc : Thread nD τ))), n ≤ 100 →
    (rdat m c).ArrAt 6 n Fv → ∀ y : S10000x40.Idx, 200 * (100 - n) ≤ (y (0 : Fin 2)).val → Fv y = outV m c y
  | 0, _, _, _, y, hy => absurd hy (by have := (y (0 : Fin 2)).isLt; have : S10000x40.size (0 : Fin 2) = 10000 := rfl; omega)
  | n + 1, Fv, hn, h, y, hy => by
    have hy0 : (y (0 : Fin 2)).val < 10000 := (y (0 : Fin 2)).isLt
    have hlt : n < cfg0.N := by have : cfg0.N = 100 := N_0; omega
    have hs := (rdat m c).ArrAt_succ 6 ⟨n, hlt⟩
    rw [show (⟨n, hlt⟩ : Fin cfg0.N).val + 1 = n + 1 from rfl] at hs
    rw [hs] at h
    by_cases hf : (cfg0.win 6).flush ⟨n, hlt⟩ = true
    · rw [if_pos hf] at h
      obtain ⟨G₀, X, hG₀, hX, rfl⟩ := h
      by_cases h50 : 50 ≤ n
      · obtain ⟨Y, -, hXY⟩ := hX
        have hX' : X = outBlk m c ⟨n, hlt⟩ := hXY h50
        rw [hX', outBlk_eq_read m c ⟨n, hlt⟩ h50, View.write_read_eq_piecewise]
        by_cases hin : y ∈ ((cfg0.win 6).blk ⟨n, hlt⟩).view.setOn Finset.univ
        · rw [Finset.piecewise_eq_of_mem _ _ _ hin]
        · rw [Finset.piecewise_eq_of_notMem _ _ _ hin]
          rw [View.setOn_univ, mem_blk6_phase1 ⟨n, hlt⟩ h50] at hin
          exact arrAt_out c n G₀ (by omega) hG₀ y (by
            have : (⟨n, hlt⟩ : Fin cfg0.N).val = n := rfl
            omega)
      · exact absurd hy (by omega)
    · rw [if_neg hf] at h
      have hnf : ¬49 ≤ n := fun h49 => hf ((flush_out_iff ⟨n, hlt⟩).mpr h49)
      exact absurd hy (by omega)

/-- The output array after the run. -/
theorem final_out (c : Dev nD) (Fv : Buf (Elt F) ((cfg0.win 6).arr.view.loc (c.tc : Thread nD τ)))
    (h : (rdat m c).ArrAt 6 cfg0.N Fv) : Fv = outV m c :=
  funext fun y => arrAt_out m c 100 Fv (le_refl _) (by rwa [show cfg0.N = 100 from N_0] at h) y (by omega)

/-- Every execution terminates with the output array holding `outV` and the argument arrays unchanged. -/
theorem run_value : θ_run defs (onTc (τ := τ) (main (F := F))) ⟨m, fun _ => 0, ρ⟩ (fun r => ∀ c : Dev nD,
      r.2.mem ((c.tc : Thread nD τ).loc main_v2) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨final_out m c _ ((h c).1 6),
      (kept_in m c 1 rfl _ ((h c).1 1)).trans (V_main_arg0 m c),
      (kept_in m c 0 rfl _ ((h c).1 0)).trans (V_main_arg1 m c),
      (kept_in m c 2 rfl _ ((h c).1 2)).trans (V_main_arg2 m c),
      ((h c).2 main_arg3 (Pipeline.mem_restRefs_of main_arg3 (by decide) (by decide))).trans (V_main_arg3 m c),
      (kept_in m c 4 rfl _ ((h c).1 4)).trans (V_main_arg4 m c),
      ((h c).2 main_arg5 (Pipeline.mem_restRefs_of main_arg5 (by decide) (by decide))).trans (V_main_arg5 m c)⟩) (run_main m ρ)

end Cert.Kernel.Hand

end
-- ==== Proof.KiSched.lean ====
/-
  The schedule of the two-phase grid, decided once over its 100 points (point t = 50·p + i for phase p and row
  block i): the projection x·W1 is computed at point 0 only; points 0–49 (phase 0) each fill rows
  [200·t, 200·t + 200) of the feature scratch; points 50–99 (phase 1) each write one block of the output. The
  output's block index is 0 throughout phase 0 and 99 − t in phase 1, so its buffer is written back after point
  49 (holding nothing the body stored) and after every point of phase 1; the adjacency block index is t in
  phase 0 and 99 − t in phase 1.
-/
import proofs.«165422_g27590869909663_cont_9to1_2276_13_alg».proof.Proof.Gen.KernelIdeal.Frame
import proofs.«165422_g27590869909663_cont_9to1_2276_13_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.KernelIdeal Cert.KernelIdeal.Gen

/-- The condition under which the body computes the projection, as the body's scalar chain states it. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at point 0 only. -/
theorem condFirst_iff : ∀ t : Fin cfg0.N, condFirst (grid0.coords t) ↔ t.val = 0 :=
  (by decide +kernel : ∀ t : Fin grid0.N, condFirst (grid0.coords t) ↔ t.val = 0)

/-- Phase 0 is the points below 50. -/
theorem phase0_iff : ∀ t : Fin cfg0.N, k0_cond2 (grid0.coords t) = 1#1 ↔ t.val < 50 :=
  (by decide +kernel : ∀ t : Fin grid0.N, k0_cond2 (grid0.coords t) = 1#1 ↔ t.val < 50)

/-- Phase 1 is the points from 50 on. -/
theorem phase1_iff : ∀ t : Fin cfg0.N, k0_cond3 (grid0.coords t) = 1#1 ↔ 50 ≤ t.val :=
  (by decide +kernel : ∀ t : Fin grid0.N, k0_cond3 (grid0.coords t) = 1#1 ↔ 50 ≤ t.val)

/-- In phase 0 the rows the body stores into the feature scratch start at 200·t. -/
theorem off_phase0 : ∀ t : Fin cfg0.N, t.val < 50 → k0_off1 (grid0.coords t) = ![200 * t.val, 0] :=
  (by decide +kernel : ∀ t : Fin grid0.N, t.val < 50 → k0_off1 (grid0.coords t) = ![200 * t.val, 0])

/-- The output's buffer is written back after point 49 and after every point of phase 1. -/
theorem flush_out_iff : ∀ t : Fin cfg0.N, (cfg0.win 6).flush t = true ↔ 49 ≤ t.val :=
  (by decide +kernel : ∀ t : Fin grid0.N, win0_6.flush t = true ↔ 49 ≤ t.val)

/-- The output's block index at a point of phase 1. -/
theorem out_index_phase1 : ∀ t : Fin cfg0.N, 50 ≤ t.val → win0_6.index t = ![99 - t.val, 0] :=
  (by decide +kernel : ∀ t : Fin grid0.N, 50 ≤ t.val → win0_6.index t = ![99 - t.val, 0])

/-- The adjacency block index: t in phase 0, 99 − t in phase 1. -/
theorem adj_index : ∀ t : Fin cfg0.N, win0_0.index t = ![if t.val < 50 then t.val else 99 - t.val, 0] :=
  (by decide +kernel : ∀ t : Fin grid0.N, win0_0.index t = ![if t.val < 50 then t.val else 99 - t.val, 0])

/-- Each window's current staging buffer at a point, and the two scratch buffers. -/
abbrev ms0 (t : Fin cfg0.N) : Memref sig .tc .vmem S200x10000 .f32 := win0_0.stage (cfg0.slots t 0)
abbrev ms1 (t : Fin cfg0.N) : Memref sig .tc .vmem S10000x128 .f32 := win0_1.stage (cfg0.slots t 1)
abbrev ms2 (t : Fin cfg0.N) : Memref sig .tc .vmem S128x128 .f32 := win0_2.stage (cfg0.slots t 2)
abbrev ms3 (t : Fin cfg0.N) : Memref sig .tc .vmem S1x128 .f32 := win0_3.stage (cfg0.slots t 3)
abbrev ms4 (t : Fin cfg0.N) : Memref sig .tc .vmem S128x40 .f32 := win0_4.stage (cfg0.slots t 4)
abbrev ms5 (t : Fin cfg0.N) : Memref sig .tc .vmem S1x40 .f32 := win0_5.stage (cfg0.slots t 5)
abbrev ms6 (t : Fin cfg0.N) : Memref sig .tc .vmem S200x40 .f32 := win0_6.stage (cfg0.slots t 6)
abbrev scP : Memref sig .tc .vmem S10000x128 .f32 := Memref.whole cc0_scratch0
abbrev scG : Memref sig .tc .vmem S10000x40 .f32 := Memref.whole cc0_scratch1

/-- What the launch hands the body besides the windows: the two scratch buffers, each whole at some contents, and
    the generator register. -/
theorem PhiA_eq (c : Dev nD) :
    (Pipeline.ΦA spec0 c : sProp 𝕄)
      = iprop(iprop((∃ d, owns (c : Thread nD τ) scP fullShare d) ∗ (∃ d, owns (c : Thread nD τ) scG fullShare d)) ∗ (∃ r, prngReg c r)) := by
  unfold Pipeline.ΦA; rw [scopedRest0_eq]; simp only [scP, scG, owns_whole]; try rfl

end Cert.KernelIdeal.Hand

end
-- ==== Proof.KiRuns.lean ====
/-
  The body at a grid point, in each of the three cases its conditionals meet, as a triple over the contents of its
  buffers: what each buffer is read to hold before, what it holds after.

  * at point 0: the projection scratch ends holding x·W1 (the body's first stored value of the two input blocks),
    and rows [o, o + 200) of the feature scratch its second stored value — computed from the adjacency block, the
    projection just stored, the bias row and W2 —, the other rows as they were;
  * at the other points of phase 0: the projection scratch is read, not written; the same rows of the feature
    scratch are overwritten in the same way;
  * in phase 1: both scratch buffers are read, not written, and the output block ends holding the body's third
    stored value (the log-softmax rows) of the adjacency block, the feature scratch and the second bias row.
  The output's buffer is untouched outside phase 1, and every input buffer is left as found.
-/
import proofs.«165422_g27590869909663_cont_9to1_2276_13_alg».proof.Proof.KiSched
import Idealize.ShloMosaic.Lib.WritesUnit
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.KernelIdeal Cert.KernelIdeal.Gen

/-- Rows [o, o + 200) of a 10000×40 array replaced by a 200×40 block, the other rows kept. -/
def putRows (o : ℕ) (d : Vec F S10000x40 .f32) (w : Vec F S200x40 .f32) : Vec F S10000x40 .f32 :=
  fun y => if h : o ≤ (y (0 : Fin 2)).val ∧ (y (0 : Fin 2)).val < o + 200 then
      w (Rect.unitLocal (s := S10000x40) (off := ![o, 0]) (size := S200x40.size) y (Rect.unit_rows_mem y rfl rfl h))
    else d y

theorem zero2 : (![0, 0] : Fin 2 → ℕ) = fun _ => 0 := by
  funext a; match a with | ⟨0, _⟩ => rfl | ⟨1, _⟩ => rfl

/-- A whole buffer stored through the full rectangle reads back as the stored value. -/
theorem read_store_whole {S : Shape} (v : View sig .tc .vmem S .f32) (f : v.ty.Contents (Elt F))
    {off : Fin S.rank → ℕ} (hz : off = fun _ => 0) (inb : ∀ a, off a + S.size a ≤ S.size a) (w : S.Idx → Elt F .f32) :
    v.read (Elt F) (v.writes (Elt F) f [⟨Rect.unit off S.size inb, w⟩]) = w := by
  rw [View.read_writes_eq_canon _ _ _ (fun y => ⟨_, List.mem_singleton_self _, View.mem_set_unit_zero hz inb y⟩),
    View.canon_unit_zero hz]

set_option maxHeartbeats 1000000 in
/-- Phase 1. -/
theorem runC (c : Dev nD) (i : grid0.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x40 .f32) (harg6 : arg6.IsWhole) (arg7 : Memref sig .tc .vmem S1x40 .f32) (harg7 : arg7.IsWhole) (arg8 : Memref sig .tc .vmem S200x40 .f32) (harg8 : arg8.IsWhole) (arg9 : Memref sig .tc .vmem S10000x128 .f32) (harg9 : arg9.IsWhole) (arg10 : Memref sig .tc .vmem S10000x40 .f32) (harg10 : arg10.IsWhole)
    (hc0 : ¬condFirst i) (hc1 : ¬k0_cond2 i = 1#1) (hc2 : k0_cond3 i = 1#1)
    (x0 : Vec F S200x10000 .f32) (x1 : Vec F S10000x128 .f32) (x2 : Vec F S128x128 .f32) (x3 : Vec F S1x128 .f32) (x4 : Vec F S128x40 .f32) (x5 : Vec F S1x40 .f32) (xs0 : Vec F S10000x128 .f32) (xs1 : Vec F S10000x40 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 x0 xs1 x5) ∗ owns (c : Thread nD τ) arg9 fullShare xs0 ∗ owns (c : Thread nD τ) arg10 fullShare xs1) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [read_store_whole _ _ zero2]
    simp only [View.readAt_eq_ld, harg2.read_unread, harg10.read_unread, harg7.read_unread,
      View.ld_unit_zero (S := S200x10000) zero2, View.ld_unit_zero (S := S10000x40) zero2, View.ld_unit_zero (S := S1x40) zero2]
  isplitl [HS0]
  · iexists _; isplitr; · ipureintro; exact harg9.read_unread _
    iexact HS0
  iexists _; isplitr; · ipureintro; exact harg10.read_unread _
  iexact HS1

set_option maxHeartbeats 1000000 in
/-- Phase 0 after its first point: rows [o, o + 200) of the feature scratch are overwritten. -/
theorem runB (c : Dev nD) (i : grid0.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x40 .f32) (harg6 : arg6.IsWhole) (arg7 : Memref sig .tc .vmem S1x40 .f32) (harg7 : arg7.IsWhole) (arg8 : Memref sig .tc .vmem S200x40 .f32) (harg8 : arg8.IsWhole) (arg9 : Memref sig .tc .vmem S10000x128 .f32) (harg9 : arg9.IsWhole) (arg10 : Memref sig .tc .vmem S10000x40 .f32) (harg10 : arg10.IsWhole)
    (hc0 : ¬condFirst i) (hc1 : k0_cond2 i = 1#1) (hc2 : ¬k0_cond3 i = 1#1) (o : ℕ) (hoff : k0_off1 i = ![o, 0])
    (x0 : Vec F S200x10000 .f32) (x1 : Vec F S10000x128 .f32) (x2 : Vec F S128x128 .f32) (x3 : Vec F S1x128 .f32) (x4 : Vec F S128x40 .f32) (x5 : Vec F S1x40 .f32) (xs0 : Vec F S10000x128 .f32) (d : Vec F S10000x40 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare d
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare (putRows o d (k0_pay2 x0 xs0 x3 x4))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _, _; isplitr; swap; · iexact H6
    ipureintro; rfl
  isplitl [HS0]
  · iexists _; isplitr; · ipureintro; exact harg9.read_unread _
    iexact HS0
  iexists _; isplitr; swap; · iexact HS1
  ipureintro
  funext y
  rw [View.read_writes_cons_rows (size := S200x40.size) (W := 200) _ _ _ _ [] y hoff rfl rfl]
  simp only [View.writes_nil, View.readAt_eq_ld, harg2.read_unread, harg9.read_unread, harg5.read_unread, harg6.read_unread, harg10.read_unread,
    View.ld_unit_zero (S := S200x10000) zero2, View.ld_unit_zero (S := S10000x128) zero2, View.ld_unit_zero (S := S1x128) zero2, View.ld_unit_zero (S := S128x40) zero2]
  rfl

set_option maxHeartbeats 1000000 in
/-- Point 0: the projection is stored, then used for the first 200 rows of the feature scratch. -/
theorem runA (c : Dev nD) (i : grid0.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x40 .f32) (harg6 : arg6.IsWhole) (arg7 : Memref sig .tc .vmem S1x40 .f32) (harg7 : arg7.IsWhole) (arg8 : Memref sig .tc .vmem S200x40 .f32) (harg8 : arg8.IsWhole) (arg9 : Memref sig .tc .vmem S10000x128 .f32) (harg9 : arg9.IsWhole) (arg10 : Memref sig .tc .vmem S10000x40 .f32) (harg10 : arg10.IsWhole)
    (hc0 : condFirst i) (hc1 : k0_cond2 i = 1#1) (hc2 : ¬k0_cond3 i = 1#1) (o : ℕ) (hoff : k0_off1 i = ![o, 0])
    (x0 : Vec F S200x10000 .f32) (x1 : Vec F S10000x128 .f32) (x2 : Vec F S128x128 .f32) (x3 : Vec F S1x128 .f32) (x4 : Vec F S128x40 .f32) (x5 : Vec F S1x40 .f32) (d : Vec F S10000x40 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare d
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare (k0_pay1 x1 x2) ∗ owns (c : Thread nD τ) arg10 fullShare (putRows o d (k0_pay2 x0 (k0_pay1 x1 x2) x3 x4))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs1
  sl_exec (disch := first | exact hc0 | exact hc1 | exact hc2)
  sl_step
  iapply Hk
  sl_unfold_run_names
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _, _; isplitr; swap; · iexact H6
    ipureintro; rfl
  isplitl [HS0]
  · iexists _; isplitr; swap; · iexact HS0
    ipureintro
    rw [read_store_whole _ _ zero2]
    simp only [View.readAt_eq_ld, harg3.read_unread, harg4.read_unread,
      View.ld_unit_zero (S := S10000x128) zero2, View.ld_unit_zero (S := S128x128) zero2]
  iexists _; isplitr; swap; · iexact HS1
  ipureintro
  funext y
  rw [View.read_writes_cons_rows (size := S200x40.size) (W := 200) _ _ _ _ [] y hoff rfl rfl]
  simp only [View.writes_nil, View.readCov_unit_zero (S := S10000x128) _ zero2, View.readAt_eq_ld, harg2.read_unread, harg3.read_unread, harg4.read_unread, harg5.read_unread, harg6.read_unread, harg10.read_unread,
    View.ld_unit_zero (S := S200x10000) zero2, View.ld_unit_zero (S := S10000x128) zero2, View.ld_unit_zero (S := S128x128) zero2, View.ld_unit_zero (S := S1x128) zero2, View.ld_unit_zero (S := S128x40) zero2]
  rfl

end Cert.KernelIdeal.Hand

end
-- ==== Proof.KiData.lean ====
/-
  What the two scratch buffers hold from point to point, and the proof data of the pipeline.

  The projection scratch holds x·W1 (the body's first stored value of the x and W1 blocks, which are the whole
  arrays) from point 0 on. The feature scratch is filled 200 rows at a time: after point t of phase 0 its rows below
  200·(t + 1) are the rows of one matrix, `featV`, whose rows [200·u, 200·u + 200) are the body's second stored
  value at point u; its other rows are whatever the buffer held. From point 49 on it IS that matrix, and the body's
  third stored value at a point t of phase 1, `outBlk t`, is a function of the adjacency block at t, that matrix
  and the second bias row.

  The output's buffer is written back after point 49 holding nothing the body stored, so what the write-backs do
  to the output array is stated as a relation: at a point of phase 1 the buffer is left holding `outBlk t`; at the
  other points nothing is said. The inputs' buffers are left as found.
-/
import proofs.«165422_g27590869909663_cont_9to1_2276_13_alg».proof.Proof.KiRuns
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.KernelIdeal Cert.KernelIdeal.Gen Idealize.ShloMosaic.ValueIdx

variable (m : (ℓ : Loc nD τ sig) → Buf (Elt F) ℓ) (ρ : Dev nD → PrngReg)

/-- The grid's first point. -/
def t0 : Fin cfg0.N := ⟨0, by decide⟩

/-- The point of phase 0 that fills row r of the feature scratch. -/
def rowPt (r : ℕ) (hr : r < 10000) : Fin cfg0.N := ⟨r / 200, by have : cfg0.N = 100 := N_0; omega⟩

/-- The point of phase 1 that writes row r of the output. -/
def outPt (r : ℕ) (hr : r < 10000) : Fin cfg0.N := ⟨99 - r / 200, by have : cfg0.N = 100 := N_0; omega⟩

/-- Position (r mod 200, j) within a block of 200 rows. -/
def inBlk (y : S10000x40.Idx) : S200x40.Idx :=
  ix2 (⟨(y (0 : Fin 2)).val % 200, Nat.mod_lt _ (by decide)⟩ : Fin 200) (⟨(y (1 : Fin 2)).val, (y (1 : Fin 2)).isLt⟩ : Fin 40)

/-- x·W1, as the body computes it at point 0. -/
def projV (c : Dev nD) : Vec F S10000x128 .f32 := k0_pay1 (iblk m c 1 t0) (iblk m c 2 t0)

/-- The 200 rows of features the body stores at point u. -/
def featBlk (c : Dev nD) (u : Fin cfg0.N) : Vec F S200x40 .f32 :=
  k0_pay2 (iblk m c 0 u) (projV m c) (iblk m c 3 u) (iblk m c 4 u)

/-- The feature matrix: row r is row r mod 200 of the block stored at point r / 200. -/
def featV (c : Dev nD) : Vec F S10000x40 .f32 :=
  fun y => featBlk m c (rowPt (y (0 : Fin 2)).val (y (0 : Fin 2)).isLt) (inBlk y)

/-- The 200 rows of output the body stores at a point t of phase 1. -/
def outBlk (c : Dev nD) (t : Fin cfg0.N) : Vec F S200x40 .f32 :=
  k0_pay3 (iblk m c 0 t) (featV m c) (iblk m c 5 t)

/-- The output array: row r is row r mod 200 of the block stored at point 99 − r / 200. -/
def outV (c : Dev nD) : Vec F S10000x40 .f32 :=
  fun y => outBlk m c (outPt (y (0 : Fin 2)).val (y (0 : Fin 2)).isLt) (inBlk y)

/-- The feature scratch agrees with the feature matrix on its rows below 200·k. -/
def FeatUpTo (c : Dev nD) (k : ℕ) (d : Vec F S10000x40 .f32) : Prop :=
  ∀ y : S10000x40.Idx, (y (0 : Fin 2)).val < 200 * k → d y = featV m c y

/-- One point of phase 0 extends the agreement by 200 rows. -/
theorem FeatUpTo.step (c : Dev nD) (t : Fin cfg0.N) (ht : t.val < 50) (d : Vec F S10000x40 .f32)
    (h : FeatUpTo m c t.val d) : FeatUpTo m c (t.val + 1) (putRows (200 * t.val) d (featBlk m c t)) := by
  intro y hy
  unfold putRows
  by_cases hin : 200 * t.val ≤ (y (0 : Fin 2)).val ∧ (y (0 : Fin 2)).val < 200 * t.val + 200
  · rw [dif_pos hin]
    unfold featV
    have e1 : rowPt (y (0 : Fin 2)).val (y (0 : Fin 2)).isLt = t := Fin.ext (by
      show (y (0 : Fin 2)).val / 200 = t.val
      omega)
    rw [e1]
    refine congrArg (featBlk m c t) (funext fun a => Fin.ext ?_)
    match a with
    | ⟨0, _⟩ =>
      show (y (0 : Fin 2)).val - 200 * t.val = (y (0 : Fin 2)).val % 200
      omega
    | ⟨1, _⟩ =>
      show (y (1 : Fin 2)).val - 0 = (y (1 : Fin 2)).val
      omega
  · rw [dif_neg hin]
    exact h y (by omega)

/-- Agreement on all 10000 rows is equality. -/
theorem FeatUpTo.eq (c : Dev nD) (k : ℕ) (hk : 50 ≤ k) (d : Vec F S10000x40 .f32) (h : FeatUpTo m c k d) : d = featV m c :=
  funext fun y => h y (by have := (y (0 : Fin 2)).isLt; have : S10000x40.size (0 : Fin 2) = 10000 := rfl; omega)

/-- The invariant between points: before point 0 the scratch buffers hold anything; afterwards the projection scratch
    holds x·W1 and the feature scratch agrees with the feature matrix on the rows filled so far. -/
def Phi (c : Dev nD) : (n : ℕ) → n ≤ cfg0.N → sProp 𝕄
  | 0, _ => Pipeline.ΦA spec0 c
  | n + 1, _ => iprop(iprop(owns (c : Thread nD τ) scP fullShare (projV m c)
      ∗ (∃ d, ⌜FeatUpTo m c (min (n + 1) 50) d⌝ ∗ owns (c : Thread nD τ) scG fullShare d)) ∗ (∃ r, prngReg c r))

theorem Phi_zero (c : Dev nD) (n : ℕ) (h : n ≤ cfg0.N) (hz : n = 0) : Phi m c n h = Pipeline.ΦA spec0 c := by
  subst hz; rfl

theorem Phi_pos (c : Dev nD) (n : ℕ) (h : n ≤ cfg0.N) (hz : n ≠ 0) :
    Phi m c n h = iprop(iprop(owns (c : Thread nD τ) scP fullShare (projV m c)
      ∗ (∃ d, ⌜FeatUpTo m c (min n 50) d⌝ ∗ owns (c : Thread nD τ) scG fullShare d)) ∗ (∃ r, prngReg c r)) := by
  cases n with
  | zero => exact absurd rfl hz
  | succ n => rfl

/-- The proof data of the pipeline on core c. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => 50 ≤ t.val → X = outBlk m c t
  Φ t := Phi m c t.val (Nat.le_of_lt_succ t.isLt)
  q _ := fullShare
  owed _ := 0

theorem A_eq (c : Dev nD) (w : Fin cfg0.W) : (rdat m c).A w = V m c (Pipeline.arrRef spec0 w) := by
  dsimp only [rdat]

end Cert.KernelIdeal.Hand

end
-- ==== Proof.KiOblig.lean ====
/-
  The body obligation: at every point, from the invariant and the windows' buffers at whatever they may hold there
  (each input at its block), the body runs to the invariant at the next point, every input buffer left as found and
  — at a point of phase 1 — the output's buffer holding that point's 200 rows of output. Three cases by the point:
  point 0 (the projection is stored and the first 200 feature rows), the rest of phase 0 (200 more feature rows; the
  agreement of the feature scratch with the feature matrix grows by those rows), phase 1 (the feature scratch, now
  the whole feature matrix, is only read).
-/
import proofs.«165422_g27590869909663_cont_9to1_2276_13_alg».proof.Proof.KiData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.KernelIdeal Cert.KernelIdeal.Gen Idealize.ShloMosaic.ValueIdx

variable (m : (ℓ : Loc nD τ sig) → Buf (Elt F) ℓ) (ρ : Dev nD → PrngReg)

theorem fetched0 (c : Dev nD) (t : Fin cfg0.N) (d) : (rdat m c).fetched 0 t d = iblk m c 0 t := by
  unfold RDat.fetched RDat.blockOf iblk; rw [A_eq]; try rfl
theorem fetched1 (c : Dev nD) (t : Fin cfg0.N) (d) : (rdat m c).fetched 1 t d = iblk m c 1 t := by
  unfold RDat.fetched RDat.blockOf iblk; rw [A_eq]; try rfl
theorem fetched2 (c : Dev nD) (t : Fin cfg0.N) (d) : (rdat m c).fetched 2 t d = iblk m c 2 t := by
  unfold RDat.fetched RDat.blockOf iblk; rw [A_eq]; try rfl
theorem fetched3 (c : Dev nD) (t : Fin cfg0.N) (d) : (rdat m c).fetched 3 t d = iblk m c 3 t := by
  unfold RDat.fetched RDat.blockOf iblk; rw [A_eq]; try rfl
theorem fetched4 (c : Dev nD) (t : Fin cfg0.N) (d) : (rdat m c).fetched 4 t d = iblk m c 4 t := by
  unfold RDat.fetched RDat.blockOf iblk; rw [A_eq]; try rfl
theorem fetched5 (c : Dev nD) (t : Fin cfg0.N) (d) : (rdat m c).fetched 5 t d = iblk m c 5 t := by
  unfold RDat.fetched RDat.blockOf iblk; rw [A_eq]; try rfl

/-- Input window 0's buffer holds its block at every point, fetched there or not. -/
theorem finds0 (c : Dev nD) (t : Fin cfg0.N) (Y) (hY : (rdat m c).Finds 0 t Y) : Y = iblk m c 0 t := by
  obtain ⟨d, hd⟩ := Pipeline.RDat.finds_in_eq_fetched (rdat m c) 0 rfl (fun _ _ _ => rfl) (fun _ _ _ h => h) t Y hY
  rw [hd]; exact fetched0 m c t d
/-- Input window 1's buffer holds its block at every point, fetched there or not. -/
theorem finds1 (c : Dev nD) (t : Fin cfg0.N) (Y) (hY : (rdat m c).Finds 1 t Y) : Y = iblk m c 1 t := by
  obtain ⟨d, hd⟩ := Pipeline.RDat.finds_in_eq_fetched (rdat m c) 1 rfl (fun _ _ _ => rfl) (fun _ _ _ h => h) t Y hY
  rw [hd]; exact fetched1 m c t d
/-- Input window 2's buffer holds its block at every point, fetched there or not. -/
theorem finds2 (c : Dev nD) (t : Fin cfg0.N) (Y) (hY : (rdat m c).Finds 2 t Y) : Y = iblk m c 2 t := by
  obtain ⟨d, hd⟩ := Pipeline.RDat.finds_in_eq_fetched (rdat m c) 2 rfl (fun _ _ _ => rfl) (fun _ _ _ h => h) t Y hY
  rw [hd]; exact fetched2 m c t d
/-- Input window 3's buffer holds its block at every point, fetched there or not. -/
theorem finds3 (c : Dev nD) (t : Fin cfg0.N) (Y) (hY : (rdat m c).Finds 3 t Y) : Y = iblk m c 3 t := by
  obtain ⟨d, hd⟩ := Pipeline.RDat.finds_in_eq_fetched (rdat m c) 3 rfl (fun _ _ _ => rfl) (fun _ _ _ h => h) t Y hY
  rw [hd]; exact fetched3 m c t d
/-- Input window 4's buffer holds its block at every point, fetched there or not. -/
theorem finds4 (c : Dev nD) (t : Fin cfg0.N) (Y) (hY : (rdat m c).Finds 4 t Y) : Y = iblk m c 4 t := by
  obtain ⟨d, hd⟩ := Pipeline.RDat.finds_in_eq_fetched (rdat m c) 4 rfl (fun _ _ _ => rfl) (fun _ _ _ h => h) t Y hY
  rw [hd]; exact fetched4 m c t d
/-- Input window 5's buffer holds its block at every point, fetched there or not. -/
theorem finds5 (c : Dev nD) (t : Fin cfg0.N) (Y) (hY : (rdat m c).Finds 5 t Y) : Y = iblk m c 5 t := by
  obtain ⟨d, hd⟩ := Pipeline.RDat.finds_in_eq_fetched (rdat m c) 5 rfl (fun _ _ _ => rfl) (fun _ _ _ h => h) t Y hY
  rw [hd]; exact fetched5 m c t d

/-- The invariant at a point's start, restated at `t.val`. -/
theorem Phi_castSucc (c : Dev nD) (t : Fin cfg0.N) :
    (rdat m c).Φ t.castSucc = Phi m c t.val (Nat.le_of_lt t.isLt) := by
  dsimp only [rdat]; simp only [Fin.coe_castSucc]

set_option maxHeartbeats 4000000 in
/-- The body at any point. -/
theorem sound_body (c : Dev nD) (t : Fin cfg0.N) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ owns (c : Thread nD τ) (ms0 t) fullShare (Y 0) ∗ owns (c : Thread nD τ) (ms1 t) fullShare (Y 1)
        ∗ owns (c : Thread nD τ) (ms2 t) fullShare (Y 2) ∗ owns (c : Thread nD τ) (ms3 t) fullShare (Y 3)
        ∗ owns (c : Thread nD τ) (ms4 t) fullShare (Y 4) ∗ owns (c : Thread nD τ) (ms5 t) fullShare (Y 5)
        ∗ owns (c : Thread nD τ) (ms6 t) fullShare (Y 6))
      ⊢ wp frame (wpE (defs₀ (F := F)) Variants.none c none) Set.univ (bodyAt0 t) (fun _ =>
        iprop((rdat m c).Φ t.succ ∗ (rdat m c).owesAt () t.succ
          ∗ (∃ X, ⌜(rdat m c).after 0 t (Y 0) X⌝ ∗ owns (c : Thread nD τ) (ms0 t) fullShare X)
          ∗ (∃ X, ⌜(rdat m c).after 1 t (Y 1) X⌝ ∗ owns (c : Thread nD τ) (ms1 t) fullShare X)
          ∗ (∃ X, ⌜(rdat m c).after 2 t (Y 2) X⌝ ∗ owns (c : Thread nD τ) (ms2 t) fullShare X)
          ∗ (∃ X, ⌜(rdat m c).after 3 t (Y 3) X⌝ ∗ owns (c : Thread nD τ) (ms3 t) fullShare X)
          ∗ (∃ X, ⌜(rdat m c).after 4 t (Y 4) X⌝ ∗ owns (c : Thread nD τ) (ms4 t) fullShare X)
          ∗ (∃ X, ⌜(rdat m c).after 5 t (Y 5) X⌝ ∗ owns (c : Thread nD τ) (ms5 t) fullShare X)
          ∗ (∃ X, ⌜(rdat m c).after 6 t (Y 6) X⌝ ∗ owns (c : Thread nD τ) (ms6 t) fullShare X))) := by
  have e0 := finds0 m c t (Y 0) (hY 0)
  have e1 := finds1 m c t (Y 1) (hY 1)
  have e2 := finds2 m c t (Y 2) (hY 2)
  have e3 := finds3 m c t (Y 3) (hY 3)
  have e4 := finds4 m c t (Y 4) (hY 4)
  have e5 := finds5 m c t (Y 5) (hY 5)
  rw [e0, e1, e2, e3, e4, e5]
  unfold bodyAt0
  rw [show (rdat m c).owesAt () t.succ = (rdat m c).owesAt () t.castSucc from rfl]
  rw [show (rdat m c).Φ t.succ = Phi m c (t.val + 1) t.isLt from rfl, Phi_castSucc,
    Phi_pos m c (t.val + 1) t.isLt (Nat.succ_ne_zero _)]
  have hN : t.val < 100 := lt_of_lt_of_eq t.isLt (show cfg0.N = 100 from N_0)
  by_cases hz : t.val = 0
  · -- point 0
    obtain rfl : t = t0 := Fin.ext hz
    rw [Phi_zero m c _ _ hz, PhiA_eq]
    iintro ⟨⟨⟨HS0, ⟨%dG, HS1⟩⟩, Hg⟩, Ho, H0, H1, H2, H3, H4, H5, H6⟩
    iapply (runA c (grid0.coords t0) _ _ _ _ _ _ _ _ _ _ _ _ _ _ _ _ _ _ ((condFirst_iff t0).mpr rfl) ((phase0_iff t0).mpr (by decide))
      (fun h => absurd ((phase1_iff t0).mp h) (by decide)) (200 * t0.val) (off_phase0 t0 (by decide))
      (iblk m c 0 t0) (iblk m c 1 t0) (iblk m c 2 t0) (iblk m c 3 t0) (iblk m c 4 t0) (iblk m c 5 t0) dG Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, ⟨%d6, H6⟩, HS0, HS1⟩
    isplitl [HS0 HS1 Hg]
    · isplitl [HS0 HS1]
      · isplitl [HS0]
        · iexact HS0
        iexists _; isplitr; swap; · iexact HS1
        ipureintro
        exact FeatUpTo.step m c t0 (by decide) dG (fun y hy => absurd hy (by simp [t0]))
      iexact Hg
    isplitl [Ho]; · iexact Ho
    isplitl [H0]
    · iexists _; isplitr; · ipureintro; exact rfl
      iexact H0
    isplitl [H1]
    · iexists _; isplitr; · ipureintro; exact rfl
      iexact H1
    isplitl [H2]
    · iexists _; isplitr; · ipureintro; exact rfl
      iexact H2
    isplitl [H3]
    · iexists _; isplitr; · ipureintro; exact rfl
      iexact H3
    isplitl [H4]
    · iexists _; isplitr; · ipureintro; exact rfl
      iexact H4
    isplitl [H5]
    · iexists _; isplitr; · ipureintro; exact rfl
      iexact H5
    iexists _; isplitr; swap; · iexact H6
    ipureintro; exact fun h => absurd h (by decide)
  · by_cases h1 : t.val < 50
    · -- the rest of phase 0
      rw [Phi_pos m c _ _ hz]
      iintro ⟨⟨⟨HS0, ⟨%dG, %hG, HS1⟩⟩, Hg⟩, Ho, H0, H1, H2, H3, H4, H5, H6⟩
      iapply (runB c (grid0.coords t) _ _ _ _ _ _ _ _ _ _ _ _ _ _ _ _ _ _ (fun h => hz ((condFirst_iff t).mp h)) ((phase0_iff t).mpr h1)
        (fun h => absurd ((phase1_iff t).mp h) (by omega)) (200 * t.val) (off_phase0 t h1)
        (iblk m c 0 t) (iblk m c 1 t) (iblk m c 2 t) (iblk m c 3 t) (iblk m c 4 t) (iblk m c 5 t) (projV m c) dG Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%d6, H6⟩, HS0, HS1⟩
      isplitl [HS0 HS1 Hg]
      · isplitl [HS0 HS1]
        · isplitl [HS0]
          · iexact HS0
          iexists _; isplitr; swap; · iexact HS1
          ipureintro
          rw [Nat.min_eq_left (by omega : t.val + 1 ≤ 50)]
          rw [Nat.min_eq_left (by omega : t.val ≤ 50)] at hG
          exact FeatUpTo.step m c t h1 dG hG
        iexact Hg
      isplitl [Ho]; · iexact Ho
      isplitl [H0]
      · iexists _; isplitr; · ipureintro; exact rfl
        iexact H0
      isplitl [H1]
      · iexists _; isplitr; · ipureintro; exact rfl
        iexact H1
      isplitl [H2]
      · iexists _; isplitr; · ipureintro; exact rfl
        iexact H2
      isplitl [H3]
      · iexists _; isplitr; · ipureintro; exact rfl
        iexact H3
      isplitl [H4]
      · iexists _; isplitr; · ipureintro; exact rfl
        iexact H4
      isplitl [H5]
      · iexists _; isplitr; · ipureintro; exact rfl
        iexact H5
      iexists _; isplitr; swap; · iexact H6
      ipureintro; exact fun h => absurd h (by omega)
    · -- phase 1
      rw [Phi_pos m c _ _ hz]
      iintro ⟨⟨⟨HS0, ⟨%dG, %hG, HS1⟩⟩, Hg⟩, Ho, H0, H1, H2, H3, H4, H5, H6⟩
      obtain rfl := FeatUpTo.eq m c _ (by omega : 50 ≤ min t.val 50) dG hG
      iapply (runC c (grid0.coords t) _ _ _ _ _ _ _ _ _ _ _ _ _ _ _ _ _ _ (fun h => hz ((condFirst_iff t).mp h)) (fun h => h1 ((phase0_iff t).mp h))
        ((phase1_iff t).mpr (by omega))
        (iblk m c 0 t) (iblk m c 1 t) (iblk m c 2 t) (iblk m c 3 t) (iblk m c 4 t) (iblk m c 5 t) (projV m c) (featV m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexists _; isplitr; swap; · iexact HS1
          ipureintro
          exact fun y _ => rfl
        iexact Hg
      isplitl [Ho]; · iexact Ho
      isplitl [H0]
      · iexists _; isplitr; · ipureintro; exact rfl
        iexact H0
      isplitl [H1]
      · iexists _; isplitr; · ipureintro; exact rfl
        iexact H1
      isplitl [H2]
      · iexists _; isplitr; · ipureintro; exact rfl
        iexact H2
      isplitl [H3]
      · iexists _; isplitr; · ipureintro; exact rfl
        iexact H3
      isplitl [H4]
      · iexists _; isplitr; · ipureintro; exact rfl
        iexact H4
      isplitl [H5]
      · iexists _; isplitr; · ipureintro; exact rfl
        iexact H5
      iexists _; isplitr; swap; · iexact H6
      ipureintro; exact fun _ => rfl

/-- The body obligation of the relational proof data, at every point. -/
theorem body_obligation (c : Dev nD) : (rdat (F := F) m c).BodyObligation (defs₀ (F := F)) Variants.none () Set.univ := fun t Y hY => by
  rw [bigSep_W0, bigSep_W0]
  exact sound_body m c t Y hY

/-- What the launch hands the region is the invariant before the first point. -/
theorem hin (c : Dev nD) : Pipeline.ΦA spec0 c ⊢ (rdat m c).Φ 0 := by
  rw [show (rdat m c).Φ 0 = Phi m c 0 (Nat.zero_le _) from rfl, Phi_zero m c 0 _ rfl]
  try exact Idealize.SL.BI.Entails.refl _

/-- After the last point the invariant gives it back: what the scratch buffers hold is forgotten. -/
theorem hout (c : Dev nD) : (rdat m c).Φ (Fin.last cfg0.N) ⊢ Pipeline.ΦA spec0 c := by
  rw [show (rdat m c).Φ (Fin.last cfg0.N) = Phi m c (Fin.last cfg0.N).val (Nat.le_of_lt_succ (Fin.last cfg0.N).isLt) from rfl,
    Phi_pos m c _ _ (by rw [Fin.val_last]; have : cfg0.N = 100 := N_0; omega), PhiA_eq]
  iintro ⟨⟨HS0, ⟨%d, %hd, HS1⟩⟩, Hg⟩
  isplitl [HS0 HS1]
  · isplitl [HS0]
    · iexists _; iexact HS0
    iexists _; iexact HS1
  iexact Hg

end Cert.KernelIdeal.Hand

end
-- ==== Proof.KiLaunch.lean ====
/-
  The run of the whole program from the body obligation, and what it leaves in the arrays.

  Every execution terminates without a fault with each argument array unchanged (an input window's array is never
  written; the two bias vectors are staged through reshaped copies and are not touched). The output array is
  written back block by block: after point 49 its rows 0–199 receive whatever the output's buffer then held, and
  after point t of phase 1 its rows [200·(99 − t), 200·(99 − t) + 200) receive that point's 200 rows of output — so
  after the write-backs below n every row from 200·(100 − n) on holds its final value, and after all 100 the whole
  array is `outV`: the early junk in rows 0–199 is overwritten by the last point.
-/
import proofs.«165422_g27590869909663_cont_9to1_2276_13_alg».proof.Proof.KiOblig

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.KernelIdeal Cert.KernelIdeal.Gen Idealize.ShloMosaic.ValueIdx

variable (m : (ℓ : Loc nD τ sig) → Buf (Elt F) ℓ) (ρ : Dev nD → PrngReg)

set_option backward.isDefEq.respectTransparency.types false in
/-- Every weakly fair execution terminates, each windowed array ending at contents the write-backs allow and every
    other unscoped buffer as the region found it. -/
theorem run_main : θ_run defs (onTc (τ := τ) (main (F := F))) (s₀ m ρ) (Pipeline.RDat.FramePost (cfgs 0) (rdat m) (V m)) :=
  Pipeline.RDat.θ_run_frame_track cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m) (hin := hin m) (hout := hout m)

/-- An input window's array ends as launched. -/
theorem kept_in (c : Dev nD) (w : Fin cfg0.W) (hw : (cfg0.win w).isOut = false)
    (Fv : Buf (Elt F) ((cfg0.win w).arr.view.loc (c.tc : Thread nD τ))) (h : (rdat m c).ArrAt w cfg0.N Fv) :
    Fv = V m c (Pipeline.arrRef spec0 w) :=
  (Eq.mp (congrFun ((rdat m c).ArrAt_in w hw _) _) h).trans (A_eq m c w)

/-- The frame: every execution terminates with the six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(kept_in m c 1 rfl _ ((h c).1 1)).trans (V_main_arg0 m c),
      (kept_in m c 0 rfl _ ((h c).1 0)).trans (V_main_arg1 m c),
      (kept_in m c 2 rfl _ ((h c).1 2)).trans (V_main_arg2 m c),
      ((h c).2 main_arg3 (Pipeline.mem_restRefs_of main_arg3 (by decide) (by decide))).trans (V_main_arg3 m c),
      (kept_in m c 4 rfl _ ((h c).1 4)).trans (V_main_arg4 m c),
      ((h c).2 main_arg5 (Pipeline.mem_restRefs_of main_arg5 (by decide) (by decide))).trans (V_main_arg5 m c)⟩) (run_main m ρ)

/-! ## The output array -/

/-- An index of the output array is in point t's block iff its row is in the block's 200 rows. -/
theorem mem_blk6 (t : Fin cfg0.N) (y : S10000x40.Idx) :
    y ∈ ((cfg0.win 6).blk t).view.set ↔ ∀ a : Fin 2, win0_6.index t a * S200x40.size a ≤ (y a).val ∧ (y a).val < win0_6.index t a * S200x40.size a + S200x40.size a := by
  show y ∈ ((View.whole main_v2).slice (win0_6.rect t)).set ↔ _
  rw [View.set_slice_whole, Rect.mem_set_unit]
  exact Iff.rfl

/-- In phase 1: the rows [200·(99 − t), 200·(99 − t) + 200). -/
theorem mem_blk6_phase1 (t : Fin cfg0.N) (ht : 50 ≤ t.val) (y : S10000x40.Idx) :
    y ∈ ((cfg0.win 6).blk t).view.set ↔ 200 * (99 - t.val) ≤ (y (0 : Fin 2)).val ∧ (y (0 : Fin 2)).val < 200 * (99 - t.val) + 200 := by
  rw [mem_blk6]
  have hi := out_index_phase1 t ht
  have h0 : win0_6.index t (0 : Fin 2) = 99 - t.val := congrFun hi 0
  have h1 : win0_6.index t (1 : Fin 2) = 0 := congrFun hi 1
  have hy1 : (y (1 : Fin 2)).val < 40 := (y (1 : Fin 2)).isLt
  constructor
  · intro h
    have b0 : win0_6.index t (0 : Fin 2) * 200 ≤ (y (0 : Fin 2)).val ∧ (y (0 : Fin 2)).val < win0_6.index t (0 : Fin 2) * 200 + 200 := h 0
    omega
  · intro h a
    match a with
    | ⟨0, _⟩ => show win0_6.index t (0 : Fin 2) * 200 ≤ (y (0 : Fin 2)).val ∧ (y (0 : Fin 2)).val < win0_6.index t (0 : Fin 2) * 200 + 200; omega
    | ⟨1, _⟩ => show win0_6.index t (1 : Fin 2) * 40 ≤ (y (1 : Fin 2)).val ∧ (y (1 : Fin 2)).val < win0_6.index t (1 : Fin 2) * 40 + 40; omega

/-- What a point of phase 1 leaves in the output's buffer is its block of `outV`. -/
theorem outBlk_eq_read (c : Dev nD) (t : Fin cfg0.N) (ht : 50 ≤ t.val) :
    (cfg0.win 6).cut (cfg0.grid.coords t) (outBlk m c t) = ((cfg0.win 6).blk t).view.read (Elt F) (outV m c) := by
  funext x
  show outBlk m c t x = outV m c (((cfg0.win 6).blk t).view.emb x)
  have hi := out_index_phase1 t ht
  have h0 : win0_6.index t (0 : Fin 2) = 99 - t.val := congrFun hi 0
  have h1 : win0_6.index t (1 : Fin 2) = 0 := congrFun hi 1
  have hx0 : (x (0 : Fin 2)).val < 200 := (x (0 : Fin 2)).isLt
  have hx1 : (x (1 : Fin 2)).val < 40 := (x (1 : Fin 2)).isLt
  have e0 : ((((cfg0.win 6).blk t).view.emb x) (0 : Fin 2)).val = win0_6.index t (0 : Fin 2) * 200 + 1 * (x (0 : Fin 2)).val := rfl
  have e1 : ((((cfg0.win 6).blk t).view.emb x) (1 : Fin 2)).val = win0_6.index t (1 : Fin 2) * 40 + 1 * (x (1 : Fin 2)).val := rfl
  unfold outV
  have ep : outPt ((((cfg0.win 6).blk t).view.emb x) (0 : Fin 2)).val ((((cfg0.win 6).blk t).view.emb x) (0 : Fin 2)).isLt = t := Fin.ext (by
    show 99 - ((((cfg0.win 6).blk t).view.emb x) (0 : Fin 2)).val / 200 = t.val
    rw [e0]; have := t.isLt; have : cfg0.N = 100 := N_0; omega)
  have eb : inBlk (((cfg0.win 6).blk t).view.emb x) = x := funext fun a => Fin.ext (by
    match a with
    | ⟨0, _⟩ => show ((((cfg0.win 6).blk t).view.emb x) (0 : Fin 2)).val % 200 = (x (0 : Fin 2)).val; rw [e0]; omega
    | ⟨1, _⟩ => show ((((cfg0.win 6).blk t).view.emb x) (1 : Fin 2)).val = (x (1 : Fin 2)).val; rw [e1]; omega)
  rw [ep, eb]

/-- After the write-backs below n, every row from 200·(100 − n) on of the output array holds its final value. -/
theorem arrAt_out (c : Dev nD) : ∀ (n : ℕ) (Fv : Buf (Elt F) ((cfg0.win 6).arr.view.loc (c.tc : Thread nD τ))), n ≤ 100 →
    (rdat m c).ArrAt 6 n Fv → ∀ y : S10000x40.Idx, 200 * (100 - n) ≤ (y (0 : Fin 2)).val → Fv y = outV m c y
  | 0, _, _, _, y, hy => absurd hy (by have := (y (0 : Fin 2)).isLt; have : S10000x40.size (0 : Fin 2) = 10000 := rfl; omega)
  | n + 1, Fv, hn, h, y, hy => by
    have hy0 : (y (0 : Fin 2)).val < 10000 := (y (0 : Fin 2)).isLt
    have hlt : n < cfg0.N := by have : cfg0.N = 100 := N_0; omega
    have hs := (rdat m c).ArrAt_succ 6 ⟨n, hlt⟩
    rw [show (⟨n, hlt⟩ : Fin cfg0.N).val + 1 = n + 1 from rfl] at hs
    rw [hs] at h
    by_cases hf : (cfg0.win 6).flush ⟨n, hlt⟩ = true
    · rw [if_pos hf] at h
      obtain ⟨G₀, X, hG₀, hX, rfl⟩ := h
      by_cases h50 : 50 ≤ n
      · obtain ⟨Y, -, hXY⟩ := hX
        have hX' : X = outBlk m c ⟨n, hlt⟩ := hXY h50
        rw [hX', outBlk_eq_read m c ⟨n, hlt⟩ h50, View.write_read_eq_piecewise]
        by_cases hin : y ∈ ((cfg0.win 6).blk ⟨n, hlt⟩).view.setOn Finset.univ
        · rw [Finset.piecewise_eq_of_mem _ _ _ hin]
        · rw [Finset.piecewise_eq_of_notMem _ _ _ hin]
          rw [View.setOn_univ, mem_blk6_phase1 ⟨n, hlt⟩ h50] at hin
          exact arrAt_out c n G₀ (by omega) hG₀ y (by
            have : (⟨n, hlt⟩ : Fin cfg0.N).val = n := rfl
            omega)
      · exact absurd hy (by omega)
    · rw [if_neg hf] at h
      have hnf : ¬49 ≤ n := fun h49 => hf ((flush_out_iff ⟨n, hlt⟩).mpr h49)
      exact absurd hy (by omega)

/-- The output array after the run. -/
theorem final_out (c : Dev nD) (Fv : Buf (Elt F) ((cfg0.win 6).arr.view.loc (c.tc : Thread nD τ)))
    (h : (rdat m c).ArrAt 6 cfg0.N Fv) : Fv = outV m c :=
  funext fun y => arrAt_out m c 100 Fv (le_refl _) (by rwa [show cfg0.N = 100 from N_0] at h) y (by omega)

/-- Every execution terminates with the output array holding `outV` and the argument arrays unchanged. -/
theorem run_value : θ_run defs (onTc (τ := τ) (main (F := F))) ⟨m, fun _ => 0, ρ⟩ (fun r => ∀ c : Dev nD,
      r.2.mem ((c.tc : Thread nD τ).loc main_v2) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨final_out m c _ ((h c).1 6),
      (kept_in m c 1 rfl _ ((h c).1 1)).trans (V_main_arg0 m c),
      (kept_in m c 0 rfl _ ((h c).1 0)).trans (V_main_arg1 m c),
      (kept_in m c 2 rfl _ ((h c).1 2)).trans (V_main_arg2 m c),
      ((h c).2 main_arg3 (Pipeline.mem_restRefs_of main_arg3 (by decide) (by decide))).trans (V_main_arg3 m c),
      (kept_in m c 4 rfl _ ((h c).1 4)).trans (V_main_arg4 m c),
      ((h c).2 main_arg5 (Pipeline.mem_restRefs_of main_arg5 (by decide) (by decide))).trans (V_main_arg5 m c)⟩) (run_main m ρ)

end Cert.KernelIdeal.Hand

end
-- ==== Proof.Spec.lean ====
/-
  The two-layer graph convolution as one function of its six arrays, entry by entry, over the extended reals.

  With P = x·W1 (a 10000×128 matrix), row r of the network is computed from row r of the adjacency matrix alone:
    hidden  = max (adj[r,·]·P + b1) 0            (128 entries)
    feat    = hidden·W2                           (40 entries; stacked over r this is the matrix Gm)
    logits  = max (adj[r,·]·Gm + b2) 0            (40 entries)
    out     = (logits − max logits) − log Σ exp (logits − max logits).
  Every sum is a finite sum over a literal index range, so no association or blocking is visible in it: a program
  that computes the rows in blocks of 200, in any order, computes this function when each block does.
-/
import Idealize.ShloMosaic.PureOps.Ideal
import Idealize.ShloMosaic.Lib.ValueIdx

noncomputable section

namespace GcnSpec

open Idealize.ShloMosaic Idealize.ShloMosaic.ValueIdx

/-- A matrix of extended reals with literal extents, indexed as the programs' arrays are. -/
abbrev Mat (a b : Nat) : Type := (⟨2, ![a, b]⟩ : Shape).Idx → EReal
/-- A vector of extended reals with a literal extent. -/
abbrev Vect (a : Nat) : Type := (⟨1, ![a]⟩ : Shape).Idx → EReal

/-- The zero both programs clamp against (the word of +0.0; the same word on both sides, never evaluated). -/
def zeroLit : EReal := Ideal.ofBits .f32 0x00000000#32
/-- The value a row maximum starts from (the word of −∞). -/
def negInf : EReal := Ideal.ofBits .f32 0xFF800000#32

/-- P = x·W1 at (r, c). -/
def proj (x : Mat 10000 128) (W1 : Mat 128 128) (r : Fin 10000) (c : Fin 128) : EReal :=
  ∑ k : Fin 128, x (ix2 r k) * W1 (ix2 k c)

/-- One row of the first layer from one row `a` of the adjacency matrix: max (a·P + b1) 0. -/
def hidden (a : Fin 10000 → EReal) (Pm : Fin 10000 → Fin 128 → EReal) (b1 : Fin 128 → EReal) (c : Fin 128) : EReal :=
  max ((∑ k : Fin 10000, a k * Pm k c) + b1 c) zeroLit

/-- That row times W2. -/
def feat (a : Fin 10000 → EReal) (Pm : Fin 10000 → Fin 128 → EReal) (b1 : Fin 128 → EReal) (W2 : Mat 128 40)
    (c : Fin 40) : EReal :=
  ∑ k : Fin 128, hidden a Pm b1 k * W2 (ix2 k c)

/-- One row of the second layer from one row `a` of the adjacency matrix and the whole feature matrix. -/
def logits (a : Fin 10000 → EReal) (Gm : Fin 10000 → Fin 40 → EReal) (b2 : Fin 40 → EReal) (c : Fin 40) : EReal :=
  max ((∑ k : Fin 10000, a k * Gm k c) + b2 c) zeroLit

/-- The maximum of a row of 40, folded from −∞. -/
def rowMax (z : Fin 40 → EReal) : EReal := (Finset.univ : Finset (Fin 40)).fold max negInf z

/-- log-softmax of a row of 40, in the shifted form both programs use. -/
def logSoftmax (z : Fin 40 → EReal) (c : Fin 40) : EReal :=
  (z c - rowMax z) - Ideal.log (∑ j : Fin 40, Ideal.exp (z j - rowMax z))

/-- The feature matrix Gm = max (adj·P + b1) 0 · W2 at (r, c). -/
def featMat (x : Mat 10000 128) (adj : Mat 10000 10000) (W1 : Mat 128 128) (b1 : Vect 128) (W2 : Mat 128 40)
    (r : Fin 10000) (c : Fin 40) : EReal :=
  feat (fun k => adj (ix2 r k)) (proj x W1) (fun j => b1 (ix1 j)) W2 c

/-- The network's output at (r, c). -/
def out (x : Mat 10000 128) (adj : Mat 10000 10000) (W1 : Mat 128 128) (b1 : Vect 128) (W2 : Mat 128 40) (b2 : Vect 40)
    (r : Fin 10000) (c : Fin 40) : EReal :=
  logSoftmax (logits (fun k => adj (ix2 r k)) (featMat x adj W1 b1 W2) (fun j => b2 (ix1 j))) c

end GcnSpec

end
-- ==== Proof.KernelValue.lean ====
/-
  The kernel body's three stored values read entry by entry over the extended reals: each is the matching row
  formula of the specification. A rows-by-columns product accumulated into zero is the finite sum of products over
  the contracted axis; a same-shape cast is the identity; a one-row array broadcast over the rows reads its one row;
  a row reduction of a 200×40 array reads the 40 entries of the row; a length-200 column cast to 200×1 and broadcast
  over 40 columns reads the column at the row.
-/
import proofs.«165422_g27590869909663_cont_9to1_2276_13_alg».proof.Proof.Gen.KernelIdeal.Skeleton
import proofs.«165422_g27590869909663_cont_9to1_2276_13_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Idealize.ShloMosaic Idealize.ShloMosaic.ValueIdx Cert.KernelIdeal Cert.KernelIdeal.Gen

/-- The dimension numbers of a rows-by-columns product: an m×k matrix times a k×n matrix, contracted over the
    left operand's columns and the right operand's rows, no batch axis. -/
abbrev plainDims (m k n : Nat)
    (wf : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ where
  lhsContracting := [1]
  rhsContracting := [0]
  lhsNonContracting := [0]
  rhsNonContracting := [1]
  lhsBatch := []
  rhsBatch := []
  wf := wf

section Plain
variable (m k n : Nat) (wf : DotDims.WF ⟨2, ![m, k]⟩ ⟨2, ![k, n]⟩ ⟨2, ![m, n]⟩ [1] [0] [0] [1] [] [])

/-- The left operand is read on its row axis at the result's row. -/
theorem plain_lhs_row (j : (⟨2, ![m, n]⟩ : Shape).Idx) (q : (plainDims m k n wf).contr.Idx) :
    ((plainDims m k n wf).lhsIdx j q 0).val = (j 0).val := by
  unfold DotDims.lhsIdx
  rw [dif_neg (show ¬(0 : Fin (⟨2, ![m, k]⟩ : Shape).rank) ∈ (plainDims m k n wf).lhsBatch from List.not_mem_nil),
    dif_pos (show (0 : Fin (⟨2, ![m, k]⟩ : Shape).rank) ∈ (plainDims m k n wf).lhsNonContracting from List.mem_singleton.mpr rfl)]
  rfl

/-- The left operand is read on its column axis at the contraction position. -/
theorem plain_lhs_col (j : (⟨2, ![m, n]⟩ : Shape).Idx) (q : (plainDims m k n wf).contr.Idx) :
    ((plainDims m k n wf).lhsIdx j q 1).val = (q ⟨0, Nat.one_pos⟩).val :=
  (plainDims m k n wf).lhsIdx_val_of_single rfl j q

/-- The right operand is read on its row axis at the contraction position. -/
theorem plain_rhs_row (j : (⟨2, ![m, n]⟩ : Shape).Idx) (q : (plainDims m k n wf).contr.Idx) :
    ((plainDims m k n wf).rhsIdx j q 0).val = (q ⟨0, Nat.one_pos⟩).val :=
  (plainDims m k n wf).rhsIdx_val_of_single rfl j q

/-- The right operand is read on its column axis at the result's column. -/
theorem plain_rhs_col (j : (⟨2, ![m, n]⟩ : Shape).Idx) (q : (plainDims m k n wf).contr.Idx) :
    ((plainDims m k n wf).rhsIdx j q 1).val = (j 1).val := by
  unfold DotDims.rhsIdx
  rw [dif_neg (show ¬(1 : Fin (⟨2, ![k, n]⟩ : Shape).rank) ∈ (plainDims m k n wf).rhsBatch from List.not_mem_nil),
    dif_pos (show (1 : Fin (⟨2, ![k, n]⟩ : Shape).rank) ∈ (plainDims m k n wf).rhsNonContracting from List.mem_singleton.mpr rfl)]
  rfl

/-- A rows-by-columns product accumulated into the zero splat, read at (r, c): the sum over the contracted axis of
    the left operand's row r times the right operand's column c. -/
theorem matmul_plain_apply (prec : Option ContractPrecision)
    (A : FVec Ideal ⟨2, ![m, k]⟩ .f32) (B : FVec Ideal ⟨2, ![k, n]⟩ .f32) (r : Fin m) (c : Fin n) :
    matmul (plainDims m k n wf) prec A B (constant (F := Ideal) ⟨2, ![m, n]⟩ .f32 0x00000000#32) (ix2 r c)
      = ∑ q : Fin k, A (ix2 r q) * B (ix2 q c) := by
  refine (Ideal.matmul_constant_zero_apply (plainDims m k n wf) prec A B (ix2 r c)).trans ?_
  rw [← Equiv.sum_comp (contrEquiv1 (plainDims m k n wf) k rfl rfl).symm]
  refine Finset.sum_congr rfl fun q _ => ?_
  have hq := contrEquiv1_symm_val (plainDims m k n wf) k rfl rfl q
  have el : (plainDims m k n wf).lhsIdx (ix2 r c) ((contrEquiv1 (plainDims m k n wf) k rfl rfl).symm q) = ix2 r q :=
    funext fun a => Fin.ext (by
      match a with
      | ⟨0, _⟩ => exact plain_lhs_row m k n wf _ _
      | ⟨1, _⟩ => exact (plain_lhs_col m k n wf _ _).trans hq)
  have er : (plainDims m k n wf).rhsIdx (ix2 r c) ((contrEquiv1 (plainDims m k n wf) k rfl rfl).symm q) = ix2 q c :=
    funext fun a => Fin.ext (by
      match a with
      | ⟨0, _⟩ => exact (plain_rhs_row m k n wf _ _).trans hq
      | ⟨1, _⟩ => exact plain_rhs_col m k n wf _ _)
  rw [el, er]

end Plain

/-! ## The column forms of a cast and a broadcast, and a row reduction, read at coordinates -/

/-- A length-a vector cast to an a×1 column reads, at (i, u), the vector at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column broadcast over b columns reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- In a reduction of an a×b array along its rows, the source index over row p with coordinate q inserted is (p, q). -/
theorem lift_row {a b : ℕ} (h : (⟨2, ![a, b]⟩ : Shape).Reduces [1] ⟨1, ![a]⟩) (p : Fin a) (q : Fin b) :
    h.lift (ix1 p) q = ix2 p q :=
  funext fun c => Fin.ext (by
    match c with
    | ⟨0, _⟩ => rfl
    | ⟨1, _⟩ => rfl)

/-- The sum along the rows of an a×b array, read at row p: the sum of the row's b entries. -/
theorem rowSum_apply {a b : ℕ} (E : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ E 0x00000000#32 h hφ hacc (ix1 p) = ∑ q : Fin b, E (ix2 p q) := by
  refine (Ideal.multiReduction_add_single E _ h hφ hacc (ix1 p)).trans ?_
  exact Finset.sum_congr rfl fun q _ => congrArg E (lift_row h p q)

/-- The maximum along the rows of an a×b array, read at row p: the fold of max over the row's b entries from the
    value of the word the reduction starts from. -/
theorem rowMax_apply {a b : ℕ} (Z : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ Z 0xFF800000#32 h hφ hacc (ix1 p)
      = (Finset.univ : Finset (Fin b)).fold max (Ideal.ofBits .f32 0xFF800000#32) (fun q => Z (ix2 p q)) := by
  refine (Ideal.multiReduction_maximumf_single Z _ h hφ hacc (ix1 p)).trans ?_
  exact congrArg (fun f => (Finset.univ : Finset (Fin b)).fold max (Ideal.ofBits .f32 0xFF800000#32) f)
    (funext fun q => congrArg Z (lift_row h p q))

/-- The first stored value at (r, c): row r of x times column c of W1. -/
theorem pay1_apply (x : Vec Ideal S10000x128 .f32) (W1 : Vec Ideal S128x128 .f32) (r : Fin 10000) (c : Fin 128) :
    k0_pay1 (F := Ideal) x W1 (ix2 r c) = GcnSpec.proj x W1 r c := by
  unfold k0_pay1
  refine (congrFun (shapeCast_self _ _) (ix2 r c)).trans ?_
  exact matmul_plain_apply 10000 128 128 _ none x W1 r c

/-- One entry of the hidden row: the adjacency row times column k of the 10000×128 matrix, plus the bias broadcast
    from its one row, clamped below by the zero word. -/
theorem hidden_apply (a : FVec Ideal S200x10000 .f32) (Pm : FVec Ideal S10000x128 .f32) (b1r : FVec Ideal S1x128 .f32)
    (r : Fin 200) (k : Fin 128) :
    maximumf
        (addf
          (matmul dot_S200x10000_S10000x128_S200x128_1_0_0_1_n_n none a Pm (constant (F := Ideal) S200x128 .f32 0x00000000#32))
          (broadcastTo S200x128 (shapeCast S1x128 b1r Facts₀.shapeCasts_S1x128_S1x128) Facts₀.broadcasts_S1x128_S200x128))
        (broadcast S200x128 (Scalar.ofBits (F := Ideal) .f32 0x00000000#32)) (ix2 r k)
      = GcnSpec.hidden (fun q => a (ix2 r q)) (fun q j => Pm (ix2 q j)) (fun j => b1r (ix2 0 j)) k := by
  refine congrArg₂ max (congrArg₂ (· + ·) (matmul_plain_apply 200 10000 128 _ none a Pm r k) ?_) rfl
  exact (broadcastTo_1b_ab_apply _ _ r k).trans (congrFun (shapeCast_self _ _) _)

/-- The second stored value at (r, c): the hidden row of adjacency row r times column c of W2. -/
theorem pay2_apply (a : Vec Ideal S200x10000 .f32) (Pm : Vec Ideal S10000x128 .f32) (b1r : Vec Ideal S1x128 .f32)
    (W2 : Vec Ideal S128x40 .f32) (r : Fin 200) (c : Fin 40) :
    k0_pay2 (F := Ideal) a Pm b1r W2 (ix2 r c)
      = GcnSpec.feat (fun k => a (ix2 r k)) (fun k j => Pm (ix2 k j)) (fun j => b1r (ix2 0 j)) W2 c := by
  unfold k0_pay2
  refine (congrFun (shapeCast_self _ _) (ix2 r c)).trans ?_
  refine (matmul_plain_apply 200 128 40 _ none _ W2 r c).trans ?_
  refine Finset.sum_congr rfl fun k _ => ?_
  exact congrArg (· * W2 (ix2 k c)) (hidden_apply a Pm b1r r k)

/-- One entry of the logits row: the adjacency row times column c of the 10000×40 matrix, plus the bias broadcast
    from its one row, clamped below by the zero word. -/
theorem logits_apply (a : FVec Ideal S200x10000 .f32) (Gm : FVec Ideal S10000x40 .f32) (b2r : FVec Ideal S1x40 .f32)
    (r : Fin 200) (c : Fin 40) :
    maximumf
        (addf
          (matmul dot_S200x10000_S10000x40_S200x40_1_0_0_1_n_n none a Gm (constant (F := Ideal) S200x40 .f32 0x00000000#32))
          (broadcastTo S200x40 (shapeCast S1x40 b2r Facts₀.shapeCasts_S1x40_S1x40) Facts₀.broadcasts_S1x40_S200x40))
        (broadcast S200x40 (Scalar.ofBits (F := Ideal) .f32 0x00000000#32)) (ix2 r c)
      = GcnSpec.logits (fun q => a (ix2 r q)) (fun q j => Gm (ix2 q j)) (fun j => b2r (ix2 0 j)) c := by
  refine congrArg₂ max (congrArg₂ (· + ·) (matmul_plain_apply 200 10000 40 _ none a Gm r c) ?_) rfl
  exact (broadcastTo_1b_ab_apply _ _ r c).trans (congrFun (shapeCast_self _ _) _)

/-- A 200×40 array minus its row maxima (taken from the word of −∞, kept as a column and broadcast back), read at
    (r, c): the entry minus the maximum of row r. -/
theorem shift_apply (Z : FVec Ideal S200x40 .f32) (r : Fin 200) (c : Fin 40) :
    subf Z
        (broadcastTo S200x40
          (shapeCast S200x1
            (multiReduction (F := Ideal) .maximumf [1] S200 Z 0xFF800000#32 Facts₀.reduces_S200x40_S200 (.inl rfl) rfl)
            Facts₀.shapeCasts_S200_S200x1)
          Facts₀.broadcasts_S200x1_S200x40) (ix2 r c)
      = Z (ix2 r c) - GcnSpec.rowMax (fun j => Z (ix2 r j)) := by
  refine congrArg (Z (ix2 r c) - ·) ?_
  refine (broadcastTo_a1_ab_apply _ _ r c).trans ?_
  refine (shapeCast_a_a1_apply _ _ r 0).trans ?_
  exact rowMax_apply Z _ _ _ r

/-- The logarithm of the row sums of the exponentials of a 200×40 array (the sums kept as a column, the logarithm
    broadcast back), read at (r, c): the logarithm of the sum over row r of the exponentials. -/
theorem logSumExp_apply (S : FVec Ideal S200x40 .f32) (r : Fin 200) (c : Fin 40) :
    broadcastTo S200x40
        (log
          (shapeCast S200x1
            (multiReduction (F := Ideal) .add [1] S200 (exp S) 0x00000000#32 Facts₀.reduces_S200x40_S200 (.inl rfl) rfl)
            Facts₀.shapeCasts_S200_S200x1))
        Facts₀.broadcasts_S200x1_S200x40 (ix2 r c)
      = Ideal.log (∑ j : Fin 40, Ideal.exp (S (ix2 r j))) := by
  refine (broadcastTo_a1_ab_apply _ _ r c).trans ?_
  refine congrArg Ideal.log ?_
  refine (shapeCast_a_a1_apply _ _ r 0).trans ?_
  exact rowSum_apply (exp S) _ _ _ r

/-- The third stored value at (r, c): the shifted log-softmax of the logits row of adjacency row r. -/
theorem pay3_apply (a : Vec Ideal S200x10000 .f32) (Gm : Vec Ideal S10000x40 .f32) (b2r : Vec Ideal S1x40 .f32)
    (r : Fin 200) (c : Fin 40) :
    k0_pay3 (F := Ideal) a Gm b2r (ix2 r c)
      = GcnSpec.logSoftmax
          (GcnSpec.logits (fun k => a (ix2 r k)) (fun k j => Gm (ix2 k j)) (fun j => b2r (ix2 0 j))) c := by
  unfold k0_pay3
  refine (congrArg₂ (· - ·) (shift_apply _ r c) (logSumExp_apply _ r c)).trans ?_
  have hz := fun j : Fin 40 => logits_apply a Gm b2r r j
  have hm := congrArg GcnSpec.rowMax (funext hz)
  exact congrArg₂ (· - ·) (congrArg₂ (· - ·) (hz c) hm)
    (congrArg Ideal.log (Finset.sum_congr rfl fun j _ =>
      congrArg Ideal.exp ((shift_apply _ r j).trans (congrArg₂ (· - ·) (hz j) hm))))

end Cert.KernelIdeal.PayValue

end
-- ==== Proof.KiValue.lean ====
/-
  The kernel's output array, read entry by entry over the extended reals.

  Each window's block at a grid point is read at coordinates as rows of the argument array it is cut from: the
  adjacency block at a point holds rows [200·q, 200·q + 200) of the adjacency matrix, q the block index at the point;
  the other input windows hold their whole arrays, the two bias rows being the bias vectors laid as one row. With
  the body's three stored values read entry by entry, the projection scratch is x·W1, the feature matrix is the
  specification's feature matrix, and row r of the output array is the specification's row r.
-/
import proofs.«165422_g27590869909663_cont_9to1_2276_13_alg».proof.Proof.KiData
import proofs.«165422_g27590869909663_cont_9to1_2276_13_alg».proof.Proof.KernelValue
import proofs.«165422_g27590869909663_cont_9to1_2276_13_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.HandValue

open Idealize.ShloMosaic Idealize.ShloMosaic.TcCoe Idealize.ShloMosaic.Tactic
open Idealize.SL Idealize.SL.Sem
open Idealize.ShloMosaic.StableHlo
open Cert.KernelIdeal Cert.KernelIdeal.Gen Cert.KernelIdeal.Hand Cert.KernelIdeal.PayValue Idealize.ShloMosaic.ValueIdx
open scoped BigOperators

variable (m : (ℓ : Loc nD τ sig) → Buf (Elt Ideal) ℓ) (c : Dev nD)

/-- The block indices of the whole-array windows, decided once over the grid. -/
theorem idx_whole : ∀ t : Fin cfg0.N, win0_1.index t = ![0, 0] ∧ win0_2.index t = ![0, 0] ∧ win0_3.index t = ![0, 0]
    ∧ win0_4.index t = ![0, 0] ∧ win0_5.index t = ![0, 0] :=
  (by decide +kernel : ∀ t : Fin grid0.N, win0_1.index t = ![0, 0] ∧ win0_2.index t = ![0, 0] ∧ win0_3.index t = ![0, 0]
    ∧ win0_4.index t = ![0, 0] ∧ win0_5.index t = ![0, 0])

/-- The x window's block at any point is the whole of x. -/
theorem blk1_apply (t : Fin cfg0.N) (r : Fin 10000) (k : Fin 128) :
    (iblk m c 1 t : Vec Ideal S10000x128 .f32) (ix2 r k)
      = (m ((c.tc : Thread nD τ).loc main_arg0) : S10000x128.Idx → EReal) (ix2 r k) := by
  have hi := (idx_whole t).1
  unfold iblk
  rw [View.read_apply]
  show V m c main_arg0 _ = _
  rw [V_main_arg0]
  refine congrArg _ (funext fun a => Fin.ext ?_)
  match a with
  | ⟨0, _⟩ => show win0_1.index t 0 * 10000 + 1 * r.val = r.val; rw [hi]; show 0 * 10000 + 1 * r.val = r.val; omega
  | ⟨1, _⟩ => show win0_1.index t 1 * 128 + 1 * k.val = k.val; rw [hi]; show 0 * 128 + 1 * k.val = k.val; omega

/-- The W1 window's block at any point is the whole of W1. -/
theorem blk2_apply (t : Fin cfg0.N) (r : Fin 128) (k : Fin 128) :
    (iblk m c 2 t : Vec Ideal S128x128 .f32) (ix2 r k)
      = (m ((c.tc : Thread nD τ).loc main_arg2) : S128x128.Idx → EReal) (ix2 r k) := by
  have hi := (idx_whole t).2.1
  unfold iblk
  rw [View.read_apply]
  show V m c main_arg2 _ = _
  rw [V_main_arg2]
  refine congrArg _ (funext fun a => Fin.ext ?_)
  match a with
  | ⟨0, _⟩ => show win0_2.index t 0 * 128 + 1 * r.val = r.val; rw [hi]; show 0 * 128 + 1 * r.val = r.val; omega
  | ⟨1, _⟩ => show win0_2.index t 1 * 128 + 1 * k.val = k.val; rw [hi]; show 0 * 128 + 1 * k.val = k.val; omega

/-- The W2 window's block at any point is the whole of W2. -/
theorem blk4_apply (t : Fin cfg0.N) (r : Fin 128) (k : Fin 40) :
    (iblk m c 4 t : Vec Ideal S128x40 .f32) (ix2 r k)
      = (m ((c.tc : Thread nD τ).loc main_arg4) : S128x40.Idx → EReal) (ix2 r k) := by
  have hi := (idx_whole t).2.2.2.1
  unfold iblk
  rw [View.read_apply]
  show V m c main_arg4 _ = _
  rw [V_main_arg4]
  refine congrArg _ (funext fun a => Fin.ext ?_)
  match a with
  | ⟨0, _⟩ => show win0_4.index t 0 * 128 + 1 * r.val = r.val; rw [hi]; show 0 * 128 + 1 * r.val = r.val; omega
  | ⟨1, _⟩ => show win0_4.index t 1 * 40 + 1 * k.val = k.val; rw [hi]; show 0 * 40 + 1 * k.val = k.val; omega

/-- The adjacency window's block at a point holds rows [200·q, 200·q + 200) of the adjacency matrix, q the block
    index at the point: the point itself in phase 0, 99 minus the point in phase 1. -/
theorem blk0_apply (t : Fin cfg0.N) (q : ℕ) (hq : (if t.val < 50 then t.val else 99 - t.val) = q) (r : Fin 200) (k : Fin 10000)
    (R : Fin 10000) (hR : R.val = 200 * q + r.val) :
    (iblk m c 0 t : Vec Ideal S200x10000 .f32) (ix2 r k)
      = (m ((c.tc : Thread nD τ).loc main_arg1) : S10000x10000.Idx → EReal) (ix2 R k) := by
  have hi := adj_index t
  rw [hq] at hi
  unfold iblk
  rw [View.read_apply]
  show V m c main_arg1 _ = _
  rw [V_main_arg1]
  refine congrArg _ (funext fun a => Fin.ext ?_)
  match a with
  | ⟨0, _⟩ => show win0_0.index t 0 * 200 + 1 * r.val = R.val; rw [hi, hR]; show q * 200 + 1 * r.val = 200 * q + r.val; omega
  | ⟨1, _⟩ => show win0_0.index t 1 * 10000 + 1 * k.val = k.val; rw [hi]; show 0 * 10000 + 1 * k.val = k.val; omega

/-- The first bias row as the region finds it: the bias vector laid as one row. -/
theorem V_b1row : (V m c main_v0 : S1x128.Idx → EReal)
    = shapeCast S1x128 (m ((c.tc : Thread nD τ).loc main_arg3) : S128.Idx → EReal) shapeCasts_S128_S1x128 := by
  dsimp only [Gen.V, Gen.hostOps0]; after_results; rfl

/-- The second bias row as the region finds it: the bias vector laid as one row. -/
theorem V_b2row : (V m c main_v1 : S1x40.Idx → EReal)
    = shapeCast S1x40 (m ((c.tc : Thread nD τ).loc main_arg5) : S40.Idx → EReal) shapeCasts_S40_S1x40 := by
  dsimp only [Gen.V, Gen.hostOps0]; after_results; rfl

/-- The first bias window's block at any point, at (0, j), is entry j of the first bias vector. -/
theorem blk3_apply (t : Fin cfg0.N) (j : Fin 128) :
    (iblk m c 3 t : Vec Ideal S1x128 .f32) (ix2 (0 : Fin 1) j)
      = (m ((c.tc : Thread nD τ).loc main_arg3) : S128.Idx → EReal) (ix1 j) := by
  have hi := (idx_whole t).2.2.1
  unfold iblk
  rw [View.read_apply]
  show (V m c main_v0 : S1x128.Idx → EReal) _ = _
  rw [V_b1row]
  refine Eq.trans (congrArg _ (funext fun a => Fin.ext ?_)) (shapeCast_a_1a_apply _ shapeCasts_S128_S1x128 (0 : Fin 1) j)
  match a with
  | ⟨0, _⟩ => show win0_3.index t 0 * 1 + 1 * 0 = 0; rw [hi]; rfl
  | ⟨1, _⟩ => show win0_3.index t 1 * 128 + 1 * j.val = j.val; rw [hi]; show 0 * 128 + 1 * j.val = j.val; omega

/-- The second bias window's block at any point, at (0, j), is entry j of the second bias vector. -/
theorem blk5_apply (t : Fin cfg0.N) (j : Fin 40) :
    (iblk m c 5 t : Vec Ideal S1x40 .f32) (ix2 (0 : Fin 1) j)
      = (m ((c.tc : Thread nD τ).loc main_arg5) : S40.Idx → EReal) (ix1 j) := by
  have hi := (idx_whole t).2.2.2.2
  unfold iblk
  rw [View.read_apply]
  show (V m c main_v1 : S1x40.Idx → EReal) _ = _
  rw [V_b2row]
  refine Eq.trans (congrArg _ (funext fun a => Fin.ext ?_)) (shapeCast_a_1a_apply _ shapeCasts_S40_S1x40 (0 : Fin 1) j)
  match a with
  | ⟨0, _⟩ => show win0_5.index t 0 * 1 + 1 * 0 = 0; rw [hi]; rfl
  | ⟨1, _⟩ => show win0_5.index t 1 * 40 + 1 * j.val = j.val; rw [hi]; show 0 * 40 + 1 * j.val = j.val; omega

/-! ## The arguments as launched -/

/-- x on core c, as launched. -/
abbrev aX : GcnSpec.Mat 10000 128 := (m ((c.tc : Thread nD τ).loc main_arg0) : S10000x128.Idx → EReal)
/-- The adjacency matrix on core c, as launched. -/
abbrev aAdj : GcnSpec.Mat 10000 10000 := (m ((c.tc : Thread nD τ).loc main_arg1) : S10000x10000.Idx → EReal)
/-- W1 on core c, as launched. -/
abbrev aW1 : GcnSpec.Mat 128 128 := (m ((c.tc : Thread nD τ).loc main_arg2) : S128x128.Idx → EReal)
/-- The first bias vector on core c, as launched. -/
abbrev aB1 : GcnSpec.Vect 128 := (m ((c.tc : Thread nD τ).loc main_arg3) : S128.Idx → EReal)
/-- W2 on core c, as launched. -/
abbrev aW2 : GcnSpec.Mat 128 40 := (m ((c.tc : Thread nD τ).loc main_arg4) : S128x40.Idx → EReal)
/-- The second bias vector on core c, as launched. -/
abbrev aB2 : GcnSpec.Vect 40 := (m ((c.tc : Thread nD τ).loc main_arg5) : S40.Idx → EReal)

/-! ## The scratch contents and the output, entry by entry -/

/-- The projection scratch is x·W1. -/
theorem projV_apply (r : Fin 10000) (c' : Fin 128) :
    projV (F := Ideal) m c (ix2 r c') = GcnSpec.proj (aX m c) (aW1 m c) r c' := by
  unfold projV
  refine (pay1_apply (iblk m c 1 t0) (iblk m c 2 t0) r c').trans ?_
  unfold GcnSpec.proj
  exact Finset.sum_congr rfl fun k _ => congrArg₂ (· * ·) (blk1_apply m c t0 r k) (blk2_apply m c t0 k c')

/-- The 200 rows of features stored at a point u of phase 0 are rows [200·u, 200·u + 200) of the specification's
    feature matrix. -/
theorem featBlk_apply (u : Fin cfg0.N) (hu : u.val < 50) (r : Fin 200) (c' : Fin 40) (R : Fin 10000)
    (hR : R.val = 200 * u.val + r.val) :
    featBlk (F := Ideal) m c u (ix2 r c')
      = GcnSpec.featMat (aX m c) (aAdj m c) (aW1 m c) (aB1 m c) (aW2 m c) R c' := by
  unfold featBlk
  refine (pay2_apply (iblk m c 0 u) (projV m c) (iblk m c 3 u) (iblk m c 4 u) r c').trans ?_
  unfold GcnSpec.featMat
  have e0 : (fun k : Fin 10000 => (iblk m c 0 u : Vec Ideal S200x10000 .f32) (ix2 r k)) = fun k => aAdj m c (ix2 R k) :=
    funext fun k => blk0_apply m c u u.val (if_pos hu) r k R hR
  have e1 : (fun (k : Fin 10000) (j : Fin 128) => projV (F := Ideal) m c (ix2 k j)) = GcnSpec.proj (aX m c) (aW1 m c) :=
    funext fun k => funext fun j => projV_apply m c k j
  have e3 : (fun j : Fin 128 => (iblk m c 3 u : Vec Ideal S1x128 .f32) (ix2 (0 : Fin 1) j)) = fun j => aB1 m c (ix1 j) :=
    funext fun j => blk3_apply m c u j
  have e4 : (iblk m c 4 u : Vec Ideal S128x40 .f32) = aW2 m c := funext fun y => by
    obtain ⟨p, q, rfl⟩ : ∃ (p : Fin 128) (q : Fin 40), y = ix2 p q := ⟨y 0, y 1, eq_ix2 y⟩
    exact blk4_apply m c u p q
  have key : GcnSpec.feat (fun k : Fin 10000 => (iblk m c 0 u : Vec Ideal S200x10000 .f32) (ix2 r k))
        (fun (k : Fin 10000) (j : Fin 128) => projV (F := Ideal) m c (ix2 k j))
        (fun j : Fin 128 => (iblk m c 3 u : Vec Ideal S1x128 .f32) (ix2 (0 : Fin 1) j))
        (iblk m c 4 u : Vec Ideal S128x40 .f32) c'
      = GcnSpec.feat (fun k => aAdj m c (ix2 R k)) (GcnSpec.proj (aX m c) (aW1 m c)) (fun j => aB1 m c (ix1 j)) (aW2 m c) c' := by
    rw [e0, e1, e3, e4]
  exact key

/-- The feature matrix the scratch ends holding is the specification's feature matrix. -/
theorem featV_apply (R : Fin 10000) (C : Fin 40) :
    featV (F := Ideal) m c (ix2 R C) = GcnSpec.featMat (aX m c) (aAdj m c) (aW1 m c) (aB1 m c) (aW2 m c) R C := by
  have hR := R.isLt
  unfold featV inBlk
  exact featBlk_apply m c (rowPt R.val R.isLt) (by show R.val / 200 < 50; omega)
    ⟨R.val % 200, Nat.mod_lt _ (by decide)⟩ ⟨C.val, C.isLt⟩ R (by show R.val = 200 * (R.val / 200) + R.val % 200; omega)

/-- The 200 rows of output stored at a point t of phase 1 are rows [200·(99 − t), 200·(99 − t) + 200) of the
    specification's output. -/
theorem outBlk_apply (t : Fin cfg0.N) (ht : 50 ≤ t.val) (r : Fin 200) (c' : Fin 40) (R : Fin 10000)
    (hR : R.val = 200 * (99 - t.val) + r.val) :
    outBlk (F := Ideal) m c t (ix2 r c')
      = GcnSpec.out (aX m c) (aAdj m c) (aW1 m c) (aB1 m c) (aW2 m c) (aB2 m c) R c' := by
  unfold outBlk
  refine (pay3_apply (iblk m c 0 t) (featV m c) (iblk m c 5 t) r c').trans ?_
  unfold GcnSpec.out
  have e0 : (fun k : Fin 10000 => (iblk m c 0 t : Vec Ideal S200x10000 .f32) (ix2 r k)) = fun k => aAdj m c (ix2 R k) :=
    funext fun k => blk0_apply m c t (99 - t.val) (if_neg (by omega)) r k R hR
  have e1 : (fun (k : Fin 10000) (j : Fin 40) => featV (F := Ideal) m c (ix2 k j))
      = GcnSpec.featMat (aX m c) (aAdj m c) (aW1 m c) (aB1 m c) (aW2 m c) :=
    funext fun k => funext fun j => featV_apply m c k j
  have e5 : (fun j : Fin 40 => (iblk m c 5 t : Vec Ideal S1x40 .f32) (ix2 (0 : Fin 1) j)) = fun j => aB2 m c (ix1 j) :=
    funext fun j => blk5_apply m c t j
  have key : GcnSpec.logSoftmax (GcnSpec.logits (fun k : Fin 10000 => (iblk m c 0 t : Vec Ideal S200x10000 .f32) (ix2 r k))
        (fun (k : Fin 10000) (j : Fin 40) => featV (F := Ideal) m c (ix2 k j))
        (fun j : Fin 40 => (iblk m c 5 t : Vec Ideal S1x40 .f32) (ix2 (0 : Fin 1) j))) c'
      = GcnSpec.logSoftmax (GcnSpec.logits (fun k => aAdj m c (ix2 R k))
        (GcnSpec.featMat (aX m c) (aAdj m c) (aW1 m c) (aB1 m c) (aW2 m c)) (fun j => aB2 m c (ix1 j))) c' := by
    rw [e0, e1, e5]
  exact key

/-- Entry (R, C) of the output array is the specification at (R, C). -/
theorem outV_apply (R : Fin 10000) (C : Fin 40) :
    outV (F := Ideal) m c (ix2 R C)
      = GcnSpec.out (aX m c) (aAdj m c) (aW1 m c) (aB1 m c) (aW2 m c) (aB2 m c) R C := by
  have hR := R.isLt
  unfold outV inBlk
  exact outBlk_apply m c (outPt R.val R.isLt) (by show 50 ≤ 99 - R.val / 200; omega)
    ⟨R.val % 200, Nat.mod_lt _ (by decide)⟩ ⟨C.val, C.isLt⟩ R
    (by show R.val = 200 * (99 - (99 - R.val / 200)) + R.val % 200; omega)

/-- The output array is the specification of the six arguments as launched, entry by entry. -/
theorem outV_eq :
    Hand.outV (F := Ideal) m c = fun y => GcnSpec.out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (y 0) (y 1) := by
  funext y
  obtain ⟨R, C, rfl⟩ : ∃ (R : Fin 10000) (C : Fin 40), y = ix2 R C := ⟨y 0, y 1, eq_ix2 y⟩
  exact outV_apply m c R C

end Cert.KernelIdeal.HandValue

end
-- ==== Proof.RefStages.lean ====
/-
  The reference program's host operations composed into named stages, each a function of the argument arrays
  (generic in the float instance): P = x·W1; H = max (adj·P + b1) 0; Gm = H·W2; Z = max (adj·Gm + b2) 0; and the
  shifted log-softmax of Z along its rows. `refOut` is the term the reference's run leaves in its result.
-/
import proofs.«165422_g27590869909663_cont_9to1_2276_13_alg».proof.Proof.Gen.ReferenceIdeal

noncomputable section

namespace Cert.ReferenceIdeal.Stages

open Cert.ReferenceIdeal Idealize.ShloMosaic Idealize.ShloMosaic.TcCoe Idealize.SL.Sem Idealize.ShloMosaic.StableHlo
open Facts₀ Facts

variable {F : FTy → Type} [FloatOps F]

/-- P = x·W1. -/
def stP (x : FVec F S10000x128 .f32) (W1 : FVec F S128x128 .f32) : FVec F S10000x128 .f32 :=
  Host.dotGeneral dot_S10000x128_S128x128_S10000x128_1_0_0_1_n_n none x W1

/-- H = max (adj·P + b1) 0, the bias broadcast along the rows. -/
def stH (x : FVec F S10000x128 .f32) (adj : FVec F S10000x10000 .f32) (W1 : FVec F S128x128 .f32) (b1 : FVec F S128 .f32) :
    FVec F S10000x128 .f32 :=
  maximumf
    (addf (Host.dotGeneral dot_S10000x10000_S10000x128_S10000x128_1_0_0_1_n_n none adj (stP x W1))
      (broadcastInDim S10000x128 ![0, 1] bcast_S1x128_S10000x128_0_1 (broadcastInDim S1x128 ![1] bcast_S128_S1x128_1 b1)))
    (broadcastInDim S10000x128 ![] bcast_S_S10000x128 (constant S_ .f32 0x00000000#32))

/-- Gm = H·W2. -/
def stG (x : FVec F S10000x128 .f32) (adj : FVec F S10000x10000 .f32) (W1 : FVec F S128x128 .f32) (b1 : FVec F S128 .f32)
    (W2 : FVec F S128x40 .f32) : FVec F S10000x40 .f32 :=
  Host.dotGeneral dot_S10000x128_S128x40_S10000x40_1_0_0_1_n_n none (stH x adj W1 b1) W2

/-- Z = max (adj·Gm + b2) 0. -/
def stZ (x : FVec F S10000x128 .f32) (adj : FVec F S10000x10000 .f32) (W1 : FVec F S128x128 .f32) (b1 : FVec F S128 .f32)
    (W2 : FVec F S128x40 .f32) (b2 : FVec F S40 .f32) : FVec F S10000x40 .f32 :=
  maximumf
    (addf (Host.dotGeneral dot_S10000x10000_S10000x40_S10000x40_1_0_0_1_n_n none adj (stG x adj W1 b1 W2))
      (broadcastInDim S10000x40 ![0, 1] bcast_S1x40_S10000x40_0_1 (broadcastInDim S1x40 ![1] bcast_S40_S1x40_1 b2)))
    (broadcastInDim S10000x40 ![] bcast_S_S10000x40 (constant S_ .f32 0x00000000#32))

/-- The row maxima of z, clamped from below by −∞ as the reference does. -/
def stMax (z : FVec F S10000x40 .f32) : FVec F S10000 .f32 :=
  maximumf (broadcastInDim S10000 ![] bcast_S_S10000 (constant S_ .f32 0xFF800000#32))
    (Host.reduce FloatOps.maximumf z (constant S_ .f32 0xFF800000#32) reducesTo_S10000x40_S10000_d1 h_S_)

/-- z shifted by its row maxima. -/
def stShift (z : FVec F S10000x40 .f32) : FVec F S10000x40 .f32 :=
  subf z (broadcastInDim S10000x40 ![0, 1] bcast_S10000x1_S10000x40_0_1 (broadcastInDim S10000x1 ![0] bcast_S10000_S10000x1_0 (stMax z)))

/-- The shifted log-softmax along the rows. -/
def stLsm (z : FVec F S10000x40 .f32) : FVec F S10000x40 .f32 :=
  subf (stShift z)
    (broadcastInDim S10000x40 ![0, 1] bcast_S10000x1_S10000x40_0_1
      (Host.log (broadcastInDim S10000x1 ![0] bcast_S10000_S10000x1_0
        (Host.reduceAdd (Host.exp (stShift z)) (constant S_ .f32 0x00000000#32) reducesTo_S10000x40_S10000_d1 h_S_))))

/-- The reference's result as a function of its six arguments. -/
def refOut (x : FVec F S10000x128 .f32) (adj : FVec F S10000x10000 .f32) (W1 : FVec F S128x128 .f32) (b1 : FVec F S128 .f32)
    (W2 : FVec F S128x40 .f32) (b2 : FVec F S40 .f32) : FVec F S10000x40 .f32 :=
  stLsm (stZ x adj W1 b1 W2 b2)

end Cert.ReferenceIdeal.Stages

end
-- ==== Proof.RefRun.lean ====
/-
  The reference program's run. The reference is a straight line of 31 host operations (its three called functions'
  operations standing at their call sites). On every device, for any float values, from any memory with zero counters,
  every weakly fair execution of it terminates; at the end its result buffer holds the composed stages of the six
  argument arrays — the row-wise shifted log-softmax of max (adj·(max (adj·(x·W1) + b1) 0 · W2) + b2) 0, as
  `Stages.refOut` spells it — and each of the six argument buffers holds what it held at launch.
-/
import proofs.«165422_g27590869909663_cont_9to1_2276_13_alg».proof.Proof.RefStages
import Idealize.ShloMosaic.Lib.StableHlo.Run

noncomputable section

namespace Cert.ReferenceIdeal.HandRun

open Cert.ReferenceIdeal Idealize.ShloMosaic Idealize.ShloMosaic.TcCoe Idealize.SL.Sem Idealize.ShloMosaic.StableHlo
open Facts₀ Facts

variable {F : FTy → Type} [FloatOps F]

/-- The reference's 31 operations, in order (a called function's operations stand in its call's place). -/
abbrev ops : List (HloOp τ sig (Elt F)) :=
  [ binary main_arg0 main_arg2 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v0 main_v1 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S10000x128 ![0, 1] bcast_S1x128_S10000x128_0_1 : (⟨S1x128, .f32⟩ : BufTy).Contents (Elt F) → (⟨S10000x128, .f32⟩ : BufTy).Contents (Elt F)),
    binary main_v1 main_v3 main_v4 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x128, .f32⟩) main_call0_v0) (broadcastInDim S10000x128 ![] bcast_S_S10000x128),
    TRef.binary (TRef.of (T := ⟨S10000x128, .f32⟩) main_v4) (TRef.of (T := ⟨S10000x128, .f32⟩) main_call0_v0) (TRef.of (T := ⟨S10000x128, .f32⟩) main_v5) maximumf,
    binary main_v5 main_arg4 main_v6 ((fun l r => Host.dotGeneral dot_S10000x128_S128x40_S10000x40_1_0_0_1_n_n none l r) : (⟨S10000x128, .f32⟩ : BufTy).Contents (Elt F) → (⟨S128x40, .f32⟩ : BufTy).Contents (Elt F) → (⟨S10000x40, .f32⟩ : BufTy).Contents (Elt F)),
    binary main_arg1 main_v6 main_v7 ((fun l r => Host.dotGeneral dot_S10000x10000_S10000x40_S10000x40_1_0_0_1_n_n none l r) : (⟨S10000x10000, .f32⟩ : BufTy).Contents (Elt F) → (⟨S10000x40, .f32⟩ : BufTy).Contents (Elt F) → (⟨S10000x40, .f32⟩ : BufTy).Contents (Elt F)),
    unary main_arg5 main_v8 (broadcastInDim S1x40 ![1] bcast_S40_S1x40_1 : (⟨S40, .f32⟩ : BufTy).Contents (Elt F) → (⟨S1x40, .f32⟩ : BufTy).Contents (Elt F)),
    unary main_v8 main_v9 (broadcastInDim S10000x40 ![0, 1] bcast_S1x40_S10000x40_0_1 : (⟨S1x40, .f32⟩ : BufTy).Contents (Elt F) → (⟨S10000x40, .f32⟩ : BufTy).Contents (Elt F)),
    binary main_v7 main_v9 main_v10 (addf : (⟨S10000x40, .f32⟩ : BufTy).Contents (Elt F) → (⟨S10000x40, .f32⟩ : BufTy).Contents (Elt F) → (⟨S10000x40, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S10000x40, .f32⟩) main_call1_v0) (broadcastInDim S10000x40 ![] bcast_S_S10000x40),
    TRef.binary (TRef.of (T := ⟨S10000x40, .f32⟩) main_v10) (TRef.of (T := ⟨S10000x40, .f32⟩) main_call1_v0) (TRef.of (T := ⟨S10000x40, .f32⟩) main_v11) maximumf,
    TRef.nullary (TRef.of (T := ⟨S_, .f32⟩) main_call2_cst) (constant S_ .f32 0xFF800000#32),
    TRef.binary (TRef.of (T := ⟨S10000x40, .f32⟩) main_v11) (TRef.of (T := ⟨S_, .f32⟩) main_call2_cst) (TRef.of (T := ⟨S10000, .f32⟩) main_call2_v0) (fun x v => Host.reduce FloatOps.maximumf x v reducesTo_S10000x40_S10000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S10000, .f32⟩) main_call2_v1) (broadcastInDim S10000 ![] bcast_S_S10000),
    TRef.binary (TRef.of (T := ⟨S10000, .f32⟩) main_call2_v1) (TRef.of (T := ⟨S10000, .f32⟩) main_call2_v0) (TRef.of (T := ⟨S10000, .f32⟩) main_call2_v2) maximumf,
    TRef.unary (TRef.of (T := ⟨S10000, .f32⟩) main_call2_v2) (TRef.of (T := ⟨S10000x1, .f32⟩) main_call2_v3) (broadcastInDim S10000x1 ![0] bcast_S10000_S10000x1_0),
    TRef.unary (TRef.of (T := ⟨S10000x1, .f32⟩) main_call2_v3) (TRef.of (T := ⟨S10000x40, .f32⟩) main_call2_v4) (broadcastInDim S10000x40 ![0, 1] bcast_S10000x1_S10000x40_0_1),
    TRef.binary (TRef.of (T := ⟨S10000x40, .f32⟩) main_v11) (TRef.of (T := ⟨S10000x40, .f32⟩) main_call2_v4) (TRef.of (T := ⟨S10000x40, .f32⟩) main_call2_v5) subf,
    TRef.unary (TRef.of (T := ⟨S10000x40, .f32⟩) main_call2_v5) (TRef.of (T := ⟨S10000x40, .f32⟩) main_call2_v6) Host.exp,
    TRef.nullary (TRef.of (T := ⟨S_, .f32⟩) main_call2_cst_1) (constant S_ .f32 0x00000000#32),
    TRef.binary (TRef.of (T := ⟨S10000x40, .f32⟩) main_call2_v6) (TRef.of (T := ⟨S_, .f32⟩) main_call2_cst_1) (TRef.of (T := ⟨S10000, .f32⟩) main_call2_v7) (fun x v => Host.reduceAdd x v reducesTo_S10000x40_S10000_d1 h_S_),
    TRef.unary (TRef.of (T := ⟨S10000, .f32⟩) main_call2_v7) (TRef.of (T := ⟨S10000x1, .f32⟩) main_call2_v8) (broadcastInDim S10000x1 ![0] bcast_S10000_S10000x1_0),
    TRef.unary (TRef.of (T := ⟨S10000x1, .f32⟩) main_call2_v8) (TRef.of (T := ⟨S10000x1, .f32⟩) main_call2_v9) Host.log,
    TRef.unary (TRef.of (T := ⟨S10000x1, .f32⟩) main_call2_v9) (TRef.of (T := ⟨S10000x40, .f32⟩) main_call2_v10) (broadcastInDim S10000x40 ![0, 1] bcast_S10000x1_S10000x40_0_1),
    TRef.binary (TRef.of (T := ⟨S10000x40, .f32⟩) main_call2_v5) (TRef.of (T := ⟨S10000x40, .f32⟩) main_call2_v10) (TRef.of (T := ⟨S10000x40, .f32⟩) main_v12) subf ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 100000 in
set_option maxHeartbeats 2000000 in
/-- The fold of the 31 operations over any launch contents, read at the result buffer, is the composed stages of the
    six arguments: each operation's result at its own buffer is its function of its operands' contents, the typed
    references' transports along `ty_eq` are the identity at these literal references, and what is left is the
    stages' definitions spelt out. -/
theorem out_eq (m : (ℓ : Loc nD τ sig) → Buf (Elt F) ℓ) (c : Dev nD) :
    after (ops (F := F)) (launchContents m c) (Proc.devRef .tc main_v12)
      = Stages.refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  after_results_simp
  simp only [cast_eq]
  unfold Stages.refOut Stages.stLsm Stages.stShift Stages.stMax Stages.stZ Stages.stG Stages.stH Stages.stP
  rfl

set_option maxHeartbeats 2000000 in
/-- On every device, for any float values, from any memory with zero counters: every weakly fair execution of the
    reference terminates with its result at the composed stages of the arguments' launch contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12)
          = Stages.refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v12).trans (out_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.HandRun

end
-- ==== Proof.RefValue.lean ====
/-
  The reference's result, read entry by entry over the extended reals.

  Each stage of the reference is read at an index (r, c): a matrix product as a finite sum over the contracted
  coordinate, a bias row or a scalar as the entry it repeats, a row maximum as a fold of `max` from −∞ over the 40
  columns, a row sum as a finite sum over the 40 columns. Composed, entry (r, c) of the reference's result is the
  specification `GcnSpec.out` at (r, c).
-/
import proofs.«165422_g27590869909663_cont_9to1_2276_13_alg».proof.Proof.RefStages
import proofs.«165422_g27590869909663_cont_9to1_2276_13_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.ReferenceIdeal.RefValue

open Cert.ReferenceIdeal Idealize.ShloMosaic Idealize.ShloMosaic.ValueIdx Idealize.SL.Sem Idealize.ShloMosaic.StableHlo
open Facts₀ Facts
open scoped BigOperators

/-! ## A plain matrix product at an entry -/

/-- A product of an M×K by a K×N matrix, contracted over the one shared axis, at entry (r, c) is the sum over k of
    A(r, k) · B(k, c). -/
theorem plainDot_apply {M K N : Nat} (d : DotDims ⟨2, ![M, K]⟩ ⟨2, ![K, N]⟩ ⟨2, ![M, N]⟩) (hd : d = DotDims.plain M K N)
    (A : FVec Ideal ⟨2, ![M, K]⟩ .f32) (B : FVec Ideal ⟨2, ![K, N]⟩ .f32) (r : Fin M) (c : Fin N) :
    Host.dotGeneral (F := Ideal) d none A B (ix2 r c) = ∑ k : Fin K, A (ix2 r k) * B (ix2 k c) := by
  subst hd
  simp only [Host.dotGeneral]
  rw [Ideal.dotGeneral_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r c) ((ValueIdx.contrEquiv1 (DotDims.plain M K N) K rfl rfl).symm k) = ix2 r k :=
    funext fun a => Fin.ext (by
      match a with
      | ⟨0, _⟩ =>
        show ((DotDims.plain M K N).lhsIdx (ix2 r c) _ 0).val = r.val
        unfold DotDims.lhsIdx
        rw [dif_neg (show ¬(0 : Fin 2) ∈ (DotDims.plain M K N).lhsBatch from List.not_mem_nil),
          dif_pos (show (0 : Fin 2) ∈ (DotDims.plain M K N).lhsNonContracting from List.mem_singleton.mpr rfl)]
        rfl
      | ⟨1, _⟩ => exact ((DotDims.plain M K N).lhsIdx_val_of_single rfl _ _).trans hk)
  have er : (DotDims.plain M K N).rhsIdx (ix2 r c) ((ValueIdx.contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ =>
        show ((DotDims.plain M K N).rhsIdx (ix2 r c) _ 1).val = c.val
        unfold DotDims.rhsIdx
        rw [dif_neg (show ¬(1 : Fin 2) ∈ (DotDims.plain M K N).rhsBatch from List.not_mem_nil),
          dif_pos (show (1 : Fin 2) ∈ (DotDims.plain M K N).rhsNonContracting from List.mem_singleton.mpr rfl)]
        rfl)
  rw [el, er]

/-- P = x·W1 at (r, c). -/
theorem stP_apply (x : FVec Ideal S10000x128 .f32) (W1 : FVec Ideal S128x128 .f32) (r : Fin 10000) (c : Fin 128) :
    Stages.stP (F := Ideal) x W1 (ix2 r c) = GcnSpec.proj x W1 r c := by
  unfold Stages.stP GcnSpec.proj
  exact plainDot_apply _ rfl x W1 r c

/-! ## Broadcasts at an entry -/

/-- A vector of n entries laid as one row and repeated down m rows reads, at (r, c), its entry c (for n other than 1,
    where the row axis is not itself a repeated unit axis). -/
theorem biasRows_apply {m n : Nat} (hn : n ≠ 1) (h1 : (⟨1, ![n]⟩ : Shape).BroadcastsInDim ⟨2, ![1, n]⟩ ![1])
    (h01 : (⟨2, ![1, n]⟩ : Shape).BroadcastsInDim ⟨2, ![m, n]⟩ ![0, 1]) (b : FVec Ideal ⟨1, ![n]⟩ .f32) (r : Fin m) (c : Fin n) :
    broadcastInDim (⟨2, ![m, n]⟩ : Shape) ![0, 1] h01 (broadcastInDim (⟨2, ![1, n]⟩ : Shape) ![1] h1 b) (ix2 r c) = b (ix1 c) := by
  refine (broadcastInDim_apply ![0, 1] h01 _ (ix2 r c) (ix2 (0 : Fin 1) c) (fun a => ?_)).trans ?_
  · match a with
    | ⟨0, _⟩ => show 0 = if (1 : Nat) = 1 then 0 else r.val; rw [if_pos rfl]
    | ⟨1, _⟩ => show c.val = if n = 1 then 0 else c.val; rw [if_neg hn]
  · refine broadcastInDim_apply ![1] h1 b (ix2 (0 : Fin 1) c) (ix1 c) (fun a => ?_)
    match a with
    | ⟨0, _⟩ => show c.val = if n = 1 then 0 else c.val; rw [if_neg hn]

/-- A vector of m entries laid as one column and repeated across n columns reads, at (r, c), its entry r (for m other
    than 1). -/
theorem colAcross_apply {m n : Nat} (hm : m ≠ 1) (h0 : (⟨1, ![m]⟩ : Shape).BroadcastsInDim ⟨2, ![m, 1]⟩ ![0])
    (h01 : (⟨2, ![m, 1]⟩ : Shape).BroadcastsInDim ⟨2, ![m, n]⟩ ![0, 1]) (v : FVec Ideal ⟨1, ![m]⟩ .f32) (r : Fin m) (c : Fin n) :
    broadcastInDim (⟨2, ![m, n]⟩ : Shape) ![0, 1] h01 (broadcastInDim (⟨2, ![m, 1]⟩ : Shape) ![0] h0 v) (ix2 r c) = v (ix1 r) := by
  refine (broadcastInDim_apply ![0, 1] h01 _ (ix2 r c) (ix2 r (0 : Fin 1)) (fun a => ?_)).trans ?_
  · match a with
    | ⟨0, _⟩ => show r.val = if m = 1 then 0 else r.val; rw [if_neg hm]
    | ⟨1, _⟩ => show 0 = if (1 : Nat) = 1 then 0 else c.val; rw [if_pos rfl]
  · refine broadcastInDim_apply ![0] h0 v (ix2 r (0 : Fin 1)) (ix1 r) (fun a => ?_)
    match a with
    | ⟨0, _⟩ => show r.val = if m = 1 then 0 else r.val; rw [if_neg hm]

/-- A scalar word repeated over any shape reads, everywhere, the extended real the word encodes. -/
theorem splat_apply {T : Shape} (h : (⟨0, ![]⟩ : Shape).BroadcastsInDim T ![]) (w : BitVec 32) (j : T.Idx) :
    broadcastInDim T ![] h (constant (F := Ideal) (⟨0, ![]⟩ : Shape) .f32 w) j = Ideal.ofBits .f32 w :=
  broadcastInDim_scalar_apply h _ j

/-! ## The two layers at an entry -/

/-- H = max (adj·P + b1) 0 at (r, c): the first layer's row r, computed from row r of the adjacency matrix. -/
theorem stH_apply (x : FVec Ideal S10000x128 .f32) (adj : FVec Ideal S10000x10000 .f32) (W1 : FVec Ideal S128x128 .f32)
    (b1 : FVec Ideal S128 .f32) (r : Fin 10000) (c : Fin 128) :
    Stages.stH (F := Ideal) x adj W1 b1 (ix2 r c)
      = GcnSpec.hidden (fun k => adj (ix2 r k)) (GcnSpec.proj x W1) (fun j => b1 (ix1 j)) c := by
  unfold Stages.stH GcnSpec.hidden GcnSpec.zeroLit
  rw [maximumf_apply, addf_apply, plainDot_apply dot_S10000x10000_S10000x128_S10000x128_1_0_0_1_n_n rfl, biasRows_apply (by decide), splat_apply]
  simp only [stP_apply]

/-- Gm = H·W2 at (r, c). -/
theorem stG_apply (x : FVec Ideal S10000x128 .f32) (adj : FVec Ideal S10000x10000 .f32) (W1 : FVec Ideal S128x128 .f32)
    (b1 : FVec Ideal S128 .f32) (W2 : FVec Ideal S128x40 .f32) (r : Fin 10000) (c : Fin 40) :
    Stages.stG (F := Ideal) x adj W1 b1 W2 (ix2 r c) = GcnSpec.featMat x adj W1 b1 W2 r c := by
  unfold Stages.stG GcnSpec.featMat GcnSpec.feat
  rw [plainDot_apply dot_S10000x128_S128x40_S10000x40_1_0_0_1_n_n rfl]
  simp only [stH_apply]

/-- Z = max (adj·Gm + b2) 0 at (r, c): the second layer's row r. -/
theorem stZ_apply (x : FVec Ideal S10000x128 .f32) (adj : FVec Ideal S10000x10000 .f32) (W1 : FVec Ideal S128x128 .f32)
    (b1 : FVec Ideal S128 .f32) (W2 : FVec Ideal S128x40 .f32) (b2 : FVec Ideal S40 .f32) (r : Fin 10000) (c : Fin 40) :
    Stages.stZ (F := Ideal) x adj W1 b1 W2 b2 (ix2 r c)
      = GcnSpec.logits (fun k => adj (ix2 r k)) (GcnSpec.featMat x adj W1 b1 W2) (fun j => b2 (ix1 j)) c := by
  unfold Stages.stZ GcnSpec.logits GcnSpec.zeroLit
  rw [maximumf_apply, addf_apply, plainDot_apply dot_S10000x10000_S10000x40_S10000x40_1_0_0_1_n_n rfl, biasRows_apply (by decide), splat_apply]
  simp only [stG_apply]

/-! ## The row maximum, the row sum and the shifted log-softmax -/

/-- A column of m entries repeated across n columns reads, at (r, c), its entry (r, 0). -/
theorem colRepeat_apply {m n : Nat} (hm : m ≠ 1) (h01 : (⟨2, ![m, 1]⟩ : Shape).BroadcastsInDim ⟨2, ![m, n]⟩ ![0, 1])
    (y : FVec Ideal ⟨2, ![m, 1]⟩ .f32) (r : Fin m) (c : Fin n) :
    broadcastInDim (⟨2, ![m, n]⟩ : Shape) ![0, 1] h01 y (ix2 r c) = y (ix2 r (0 : Fin 1)) := by
  refine broadcastInDim_apply ![0, 1] h01 y (ix2 r c) (ix2 r (0 : Fin 1)) (fun a => ?_)
  match a with
  | ⟨0, _⟩ => show r.val = if m = 1 then 0 else r.val; rw [if_neg hm]
  | ⟨1, _⟩ => show 0 = if (1 : Nat) = 1 then 0 else c.val; rw [if_pos rfl]

/-- A vector of m entries laid as one column reads, at (r, 0), its entry r. -/
theorem colKeep_apply {m : Nat} (hm : m ≠ 1) (h0 : (⟨1, ![m]⟩ : Shape).BroadcastsInDim ⟨2, ![m, 1]⟩ ![0])
    (v : FVec Ideal ⟨1, ![m]⟩ .f32) (r : Fin m) :
    broadcastInDim (⟨2, ![m, 1]⟩ : Shape) ![0] h0 v (ix2 r (0 : Fin 1)) = v (ix1 r) := by
  refine broadcastInDim_apply ![0] h0 v (ix2 r (0 : Fin 1)) (ix1 r) (fun a => ?_)
  match a with
  | ⟨0, _⟩ => show r.val = if m = 1 then 0 else r.val; rw [if_neg hm]

/-- Column k put back into the reduced row index r is the entry index (r, k). -/
theorem lift_row (h : S10000x40.Reduces [1] S10000) (r : Fin 10000) (k : Fin (S10000x40.size 1)) :
    h.lift (ix1 r) k = ix2 r (⟨k.val, k.isLt⟩ : Fin 40) := by
  funext a; apply Fin.ext
  match a with
  | ⟨0, _⟩ => rfl
  | ⟨1, _⟩ => rfl

/-- The reference's row maximum: a fold of `max` from −∞ over the 40 columns of row r, then `max` with −∞ once more,
    which changes nothing because the fold is already at least its starting value. -/
theorem stMax_apply (z : FVec Ideal S10000x40 .f32) (r : Fin 10000) :
    Stages.stMax (F := Ideal) z (ix1 r) = GcnSpec.rowMax (fun c => z (ix2 r c)) := by
  have h : S10000x40.Reduces [1] S10000 := by decide
  unfold Stages.stMax GcnSpec.rowMax GcnSpec.negInf
  rw [maximumf_apply, splat_apply]
  have hf : (z ∘ h.lift (ix1 r)) = fun c : Fin 40 => z (ix2 r c) := funext fun k => congrArg z (lift_row h r k)
  have e : (Finset.univ : Finset (Fin (S10000x40.size 1))).fold FloatOps.maximumf
        (constant (F := Ideal) S_ .f32 0xFF800000#32 (Shape.Idx.first h_S_)) (z ∘ h.lift (ix1 r))
      = (Finset.univ : Finset (Fin 40)).fold max (Ideal.ofBits .f32 0xFF800000#32) (fun c : Fin 40 => z (ix2 r c)) :=
    congrArg (fun f => Finset.fold max (Ideal.ofBits .f32 0xFF800000#32) f (Finset.univ : Finset (Fin 40))) hf
  refine (congrArg (max (Ideal.ofBits .f32 0xFF800000#32))
    ((Host.reduce_eq_fold_single FloatOps.maximumf z _ reducesTo_S10000x40_S10000_d1 h h_S_ (ix1 r)).trans e)).trans ?_
  exact max_eq_right ((Finset.le_fold_max _).mpr (Or.inl le_rfl))

/-- z shifted by its row maxima, at (r, c). -/
theorem stShift_apply (z : FVec Ideal S10000x40 .f32) (r : Fin 10000) (c : Fin 40) :
    Stages.stShift (F := Ideal) z (ix2 r c) = z (ix2 r c) - GcnSpec.rowMax (fun j => z (ix2 r j)) := by
  unfold Stages.stShift
  rw [subf_apply, colRepeat_apply (by decide), colKeep_apply (by decide), stMax_apply]

/-- The host's sum over the 40 columns of row r, started from the zero word: the finite sum of the row. -/
theorem rowSum_apply (y : FVec Ideal S10000x40 .f32) (r : Fin 10000) :
    Host.reduceAdd (F := Ideal) y (constant (F := Ideal) S_ .f32 0x00000000#32) reducesTo_S10000x40_S10000_d1 h_S_ (ix1 r)
      = ∑ j : Fin 40, y (ix2 r j) := by
  have h : S10000x40.Reduces [1] S10000 := by decide
  rw [hostReduceAdd_apply, Ideal.hostReduceAdd_single reducesTo_S10000x40_S10000_d1 h, constant_apply,
    Ideal.ofBits_zero_f32, zero_add]
  exact Finset.sum_congr rfl fun k _ => congrArg y (lift_row h r k)

/-- The host's logarithm at an entry is the extended reals' logarithm of the entry. -/
theorem hostLog_apply {s : Shape} (y : FVec Ideal s .f32) (i : s.Idx) : Host.log (F := Ideal) y i = Ideal.log (y i) := rfl

/-- The host's exponential at an entry is the extended reals' exponential of the entry. -/
theorem hostExp_apply {s : Shape} (y : FVec Ideal s .f32) (i : s.Idx) : Host.exp (F := Ideal) y i = Ideal.exp (y i) := rfl

/-- The shifted log-softmax of row r at column c. -/
theorem stLsm_apply (z : FVec Ideal S10000x40 .f32) (r : Fin 10000) (c : Fin 40) :
    Stages.stLsm (F := Ideal) z (ix2 r c) = GcnSpec.logSoftmax (fun j => z (ix2 r j)) c := by
  unfold Stages.stLsm GcnSpec.logSoftmax
  rw [subf_apply, stShift_apply, colRepeat_apply (by decide)]
  refine congrArg (fun t => (z (ix2 r c) - GcnSpec.rowMax fun j => z (ix2 r j)) - t) ?_
  rw [hostLog_apply, colKeep_apply (by decide), rowSum_apply]
  refine congrArg Ideal.log (Finset.sum_congr rfl fun j _ => ?_)
  rw [hostExp_apply, stShift_apply]

/-! ## The reference's result -/

/-- Entry (r, c) of the reference's result is the specification at (r, c). -/
theorem refOut_apply (x : FVec Ideal S10000x128 .f32) (adj : FVec Ideal S10000x10000 .f32) (W1 : FVec Ideal S128x128 .f32)
    (b1 : FVec Ideal S128 .f32) (W2 : FVec Ideal S128x40 .f32) (b2 : FVec Ideal S40 .f32) (r : Fin 10000) (c : Fin 40) :
    Stages.refOut (F := Ideal) x adj W1 b1 W2 b2 (ix2 r c) = GcnSpec.out x adj W1 b1 W2 b2 r c := by
  unfold Stages.refOut GcnSpec.out
  rw [stLsm_apply]
  exact congrArg (fun f => GcnSpec.logSoftmax f c) (funext fun j => stZ_apply x adj W1 b1 W2 b2 r j)

/-- The reference's result is the specification, entry by entry. -/
theorem refOut_eq (x : FVec Ideal S10000x128 .f32) (adj : FVec Ideal S10000x10000 .f32) (W1 : FVec Ideal S128x128 .f32)
    (b1 : FVec Ideal S128 .f32) (W2 : FVec Ideal S128x40 .f32) (b2 : FVec Ideal S40 .f32) :
    Stages.refOut (F := Ideal) x adj W1 b1 W2 b2 = fun i => GcnSpec.out x adj W1 b1 W2 b2 (i 0) (i 1) := by
  funext i
  obtain ⟨r, c, rfl⟩ : ∃ (r : Fin 10000) (c : Fin 40), i = ix2 r c := ⟨i 0, i 1, eq_ix2 i⟩
  exact refOut_apply x adj W1 b1 W2 b2 r c

end Cert.ReferenceIdeal.RefValue

end
-- ==== Proof.lean ====
/-
  Equivalence, over the extended reals, of a two-layer graph convolution computed by ONE two-phase pipelined kernel
  and its array-at-a-time reference:

      out = log_softmax (max (adj · (max (adj · (x·W1) + b1) 0 · W2) + b2) 0)   along the rows.

  The kernel walks the 10000 rows of the adjacency matrix in 50 blocks of 200, twice. At its first point it stores
  x·W1 in a scratch buffer; in phase 0 (points 0–49) block t fills rows [200·t, 200·t + 200) of a second scratch with
  max (adj_blk · (x·W1) + b1) 0 · W2; in phase 1 (points 50–99) block 99 − t is read again and rows
  [200·(99 − t), 200·(99 − t) + 200) of the output receive the shifted log-softmax of max (adj_blk · G + b2) 0, G the
  second scratch, by then complete. Every matrix product, row maximum and row sum is a finite sum or fold over a
  literal range on both sides and the two programs associate the products alike, so no law of the extended reals
  beyond reindexing is needed and the inputs' finiteness is never used.

  The frames (both printed forms of the kernel, and the reference): every execution terminates without a fault and
  leaves the six argument arrays unchanged. For the kernel this is the pipeline rule over relational proof data:
  the output's buffer is written back once, after point 49, before the body has stored anything in it, so nothing
  is said of the output's contents at the points of phase 0, and rows 0–199 are overwritten by the last point.
  The value: the kernel's output array is `outV`, row r computed at point 99 − r / 200 (KiLaunch), which is the
  specification's `GcnSpec.out` entry by entry (KiValue over the three stored values read in KernelValue); the
  reference's result is its composed stages (RefRun), the same specification (RefValue).
-/
import proofs.«165422_g27590869909663_cont_9to1_2276_13_alg».proof.Defs
import proofs.«165422_g27590869909663_cont_9to1_2276_13_alg».proof.Proof.Gen.Kernel
import proofs.«165422_g27590869909663_cont_9to1_2276_13_alg».proof.Proof.Gen.KernelIdeal
import proofs.«165422_g27590869909663_cont_9to1_2276_13_alg».proof.Proof.Gen.ReferenceIdeal
import proofs.«165422_g27590869909663_cont_9to1_2276_13_alg».proof.Proof.Gen.Pre_finite_inputs
import proofs.«165422_g27590869909663_cont_9to1_2276_13_alg».proof.Proof.KbLaunch
import proofs.«165422_g27590869909663_cont_9to1_2276_13_alg».proof.Proof.KiLaunch
import proofs.«165422_g27590869909663_cont_9to1_2276_13_alg».proof.Proof.KiValue
import proofs.«165422_g27590869909663_cont_9to1_2276_13_alg».proof.Proof.RefRun
import proofs.«165422_g27590869909663_cont_9to1_2276_13_alg».proof.Proof.RefValue
import Idealize.ShloMosaic.Adequacy
import Idealize.ShloMosaic.Init

noncomputable section

namespace Cert.Proof

open Idealize.ShloMosaic Idealize.SL.Sem

/-- The word-level kernel terminates and leaves its arguments unchanged. -/
theorem frame_k : Cert.frame_Kernel := fun m ρ _ => Cert.Kernel.Hand.frame (F := Bits) m ρ

/-- So does the kernel read at the extended reals. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- The idealization rewrote no operation. -/
theorem preserves : Cert.preserves_Kernel_KernelIdeal := trivial

/-- From memories agreeing on the arguments the kernel's output array and the reference's result are the same
    function of the arguments, entry by entry: both are the specification. -/
theorem algebraic : Cert.algebraic_KernelIdeal_ReferenceIdeal := by
  intro m ρ m' ρ' _ hagree
  refine ⟨fun c => Cert.KernelIdeal.Hand.outV (F := Ideal) m c, Cert.KernelIdeal.Hand.run_value (F := Ideal) m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2.1, (hagree c).2.2.2.1, (hagree c).2.2.2.2.1, (hagree c).2.2.2.2.2]
  exact (Cert.ReferenceIdeal.RefValue.refOut_eq _ _ _ _ _ _).trans (Cert.KernelIdeal.HandValue.outV_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
